-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S65x128 : Shape := ⟨2, ![65, 128]⟩
abbrev S129x10 : Shape := ⟨2, ![129, 10]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S65x128 : S_.BroadcastsInDim S65x128 (![] : Fin 0 → Fin S65x128.rank)
  reducesTo_S65x128_S_d0_1 : S65x128.ReducesTo [0, 1] S_
  bcast_S_S129x10 : S_.BroadcastsInDim S129x10 (![] : Fin 0 → Fin S129x10.rank)
  reducesTo_S129x10_S_d0_1 : S129x10.ReducesTo [0, 1] S_

variable [Facts]

def fn_part1 {F : FTy → Type} [FloatOps F] (main_arg5 : FVec F S129x10 .f32) (main_v13 : IVec S_ 1) (main_v16 : IVec S129x10 1) : IVec S_ 1 :=
  let main_c_5 : IVec S_ 1 := constantI S_ 1 1#1
  let main_v17 : IVec S_ 1 := (fun x v => Host.reduce IntOp.andi x v reducesTo_S129x10_S_d0_1 h_S_) main_v16 main_c_5
  let main_v18 : IVec S_ 1 := andi main_v13 main_v17
  let main_v19 : FVec F S129x10 .f32 := Host.absf main_arg5
  let main_cst_6 : FVec F S_ .f32 := constant S_ .f32 0x7F800000#32
  let main_v20 : FVec F S129x10 .f32 := broadcastInDim S129x10 ![] bcast_S_S129x10 main_cst_6
  let main_v21 : IVec S129x10 1 := cmpf .olt main_v19 main_v20
  let main_c_7 : IVec S_ 1 := constantI S_ 1 1#1
  let main_v22 : IVec S_ 1 := (fun x v => Host.reduce IntOp.andi x v reducesTo_S129x10_S_d0_1 h_S_) main_v21 main_c_7
  let main_v23 : IVec S_ 1 := andi main_v18 main_v22
  main_v23

def fn {F : FTy → Type} [FloatOps F] (main_arg0 : FVec F S50000x64 .f32) (main_arg1 : IVec S2x800000 32) (main_arg2 : FVec F S65x128 .f32) (main_arg3 : FVec F S65x128 .f32) (main_arg4 : FVec F S129x10 .f32) (main_arg5 : FVec F S129x10 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S65x128 .f32 := Host.absf main_arg2
  let main_cst_0 : FVec F S_ .f32 := constant S_ .f32 0x7F800000#32
  let main_v5 : FVec F S65x128 .f32 := broadcastInDim S65x128 ![] bcast_S_S65x128 main_cst_0
  let main_v6 : IVec S65x128 1 := cmpf .olt main_v4 main_v5
  let main_c_1 : IVec S_ 1 := constantI S_ 1 1#1
  let main_v7 : IVec S_ 1 := (fun x v => Host.reduce IntOp.andi x v reducesTo_S65x128_S_d0_1 h_S_) main_v6 main_c_1
  let main_v8 : IVec S_ 1 := andi main_v3 main_v7
  let main_v9 : FVec F S65x128 .f32 := Host.absf main_arg3
  let main_cst_2 : FVec F S_ .f32 := constant S_ .f32 0x7F800000#32
  let main_v10 : FVec F S65x128 .f32 := broadcastInDim S65x128 ![] bcast_S_S65x128 main_cst_2
  let main_v11 : IVec S65x128 1 := cmpf .olt main_v9 main_v10
  let main_c_3 : IVec S_ 1 := constantI S_ 1 1#1
  let main_v12 : IVec S_ 1 := (fun x v => Host.reduce IntOp.andi x v reducesTo_S65x128_S_d0_1 h_S_) main_v11 main_c_3
  let main_v13 : IVec S_ 1 := andi main_v8 main_v12
  let main_v14 : FVec F S129x10 .f32 := Host.absf main_arg4
  let main_cst_4 : FVec F S_ .f32 := constant S_ .f32 0x7F800000#32
  let main_v15 : FVec F S129x10 .f32 := broadcastInDim S129x10 ![] bcast_S_S129x10 main_cst_4
  let main_v16 : IVec S129x10 1 := cmpf .olt main_v14 main_v15
  fn_part1 (F := F) main_arg5 main_v13 main_v16
-- ==== Kernel.lean ====
abbrev S50000x64 : Shape := ⟨2, ![50000, 64]⟩
abbrev S2x800000 : Shape := ⟨2, ![2, 800000]⟩
abbrev S65x128 : Shape := ⟨2, ![65, 128]⟩
abbrev S129x10 : Shape := ⟨2, ![129, 10]⟩
abbrev S1x800000 : Shape := ⟨2, ![1, 800000]⟩
abbrev S800000 : Shape := ⟨1, ![800000]⟩
abbrev S_ : Shape := ⟨0, ![]⟩
abbrev S50000x1 : Shape := ⟨2, ![50000, 1]⟩
abbrev S50000x65 : Shape := ⟨2, ![50000, 65]⟩
abbrev S800000x1 : Shape := ⟨2, ![800000, 1]⟩
abbrev S800000x65 : Shape := ⟨2, ![800000, 65]⟩
abbrev S50000 : Shape := ⟨1, ![50000]⟩
abbrev S50000x128 : Shape := ⟨2, ![50000, 128]⟩
abbrev S2000x65 : Shape := ⟨2, ![2000, 65]⟩
abbrev S2000x128 : Shape := ⟨2, ![2000, 128]⟩
abbrev S2000 : Shape := ⟨1, ![2000]⟩
abbrev S2000x1 : Shape := ⟨2, ![2000, 1]⟩
abbrev S50000x129 : Shape := ⟨2, ![50000, 129]⟩
abbrev S800000x129 : Shape := ⟨2, ![800000, 129]⟩
abbrev S50000x10 : Shape := ⟨2, ![50000, 10]⟩
abbrev S2000x129 : Shape := ⟨2, ![2000, 129]⟩
abbrev S2000x10 : Shape := ⟨2, ![2000, 10]⟩

abbrev nBuf : Space → Nat
  | .hbm => 68
  | .vmem => 16
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S65x128, .f32⟩
  | .hbm, ⟨3, _⟩ => ⟨S65x128, .f32⟩
  | .hbm, ⟨4, _⟩ => ⟨S129x10, .f32⟩
  | .hbm, ⟨5, _⟩ => ⟨S129x10, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S50000x1, .f32⟩
  | .hbm, ⟨12, _⟩ => ⟨S50000x65, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x65, .f32⟩
  | .hbm, ⟨22, _⟩ => ⟨S_, .f32⟩
  | .hbm, ⟨23, _⟩ => ⟨S50000x65, .f32⟩
  | .hbm, ⟨24, _⟩ => ⟨S800000x1, .i32⟩
  | .hbm, ⟨25, _⟩ => ⟨S50000x65, .f32⟩
  | .hbm, ⟨26, _⟩ => ⟨S_, .f32⟩
  | .hbm, ⟨27, _⟩ => ⟨S800000, .f32⟩
  | .hbm, ⟨28, _⟩ => ⟨S_, .f32⟩
  | .hbm, ⟨29, _⟩ => ⟨S50000, .f32⟩
  | .hbm, ⟨30, _⟩ => ⟨S800000x1, .i32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x65, .f32⟩
  | .hbm, ⟨37, _⟩ => ⟨S50000x65, .f32⟩
  | .hbm, ⟨38, _⟩ => ⟨S50000x128, .f32⟩
  | .hbm, ⟨39, _⟩ => ⟨S_, .f32⟩
  | .hbm, ⟨40, _⟩ => ⟨S50000x1, .f32⟩
  | .hbm, ⟨41, _⟩ => ⟨S50000x129, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x129, .f32⟩
  | .hbm, ⟨51, _⟩ => ⟨S_, .f32⟩
  | .hbm, ⟨52, _⟩ => ⟨S50000x129, .f32⟩
  | .hbm, ⟨53, _⟩ => ⟨S800000x1, .i32⟩
  | .hbm, ⟨54, _⟩ => ⟨S50000x129, .f32⟩
  | .hbm, ⟨55, _⟩ => ⟨S_, .f32⟩
  | .hbm, ⟨56, _⟩ => ⟨S800000, .f32⟩
  | .hbm, ⟨57, _⟩ => ⟨S_, .f32⟩
  | .hbm, ⟨58, _⟩ => ⟨S50000, .f32⟩
  | .hbm, ⟨59, _⟩ => ⟨S800000x1, .i32⟩
  | .hbm, ⟨60, _⟩ => ⟨S50000, .f32⟩
  | .hbm, ⟨61, _⟩ => ⟨S_, .f32⟩
  | .hbm, ⟨62, _⟩ => ⟨S50000, .f32⟩
  | .hbm, ⟨63, _⟩ => ⟨S50000, .f32⟩
  | .hbm, ⟨64, _⟩ => ⟨S50000x1, .f32⟩
  | .hbm, ⟨65, _⟩ => ⟨S50000x129, .f32⟩
  | .hbm, ⟨66, _⟩ => ⟨S50000x129, .f32⟩
  | .hbm, ⟨67, _⟩ => ⟨S50000x10, .f32⟩
  | .local _ .vmem, ⟨0, _⟩ => ⟨S2000x65, .f32⟩
  | .local _ .vmem, ⟨1, _⟩ => ⟨S2000x65, .f32⟩
  | .local _ .vmem, ⟨2, _⟩ => ⟨S2000x65, .f32⟩
  | .local _ .vmem, ⟨3, _⟩ => ⟨S2000x65, .f32⟩
  | .local _ .vmem, ⟨4, _⟩ => ⟨S65x128, .f32⟩
  | .local _ .vmem, ⟨5, _⟩ => ⟨S65x128, .f32⟩
  | .local _ .vmem, ⟨6, _⟩ => ⟨S2000x128, .f32⟩
  | .local _ .vmem, ⟨7, _⟩ => ⟨S2000x128, .f32⟩
  | .local _ .vmem, ⟨8, _⟩ => ⟨S2000x129, .f32⟩
  | .local _ .vmem, ⟨9, _⟩ => ⟨S2000x129, .f32⟩
  | .local _ .vmem, ⟨10, _⟩ => ⟨S2000x129, .f32⟩
  | .local _ .vmem, ⟨11, _⟩ => ⟨S2000x129, .f32⟩
  | .local _ .vmem, ⟨12, _⟩ => ⟨S129x10, .f32⟩
  | .local _ .vmem, ⟨13, _⟩ => ⟨S129x10, .f32⟩
  | .local _ .vmem, ⟨14, _⟩ => ⟨S2000x10, .f32⟩
  | .local _ .vmem, ⟨15, _⟩ => ⟨S2000x10, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_c_6 : Ref sig .tc := ⟨.hbm, 42, rfl⟩
abbrev main_v28 : Ref sig .tc := ⟨.hbm, 43, rfl⟩
abbrev main_v29 : Ref sig .tc := ⟨.hbm, 44, rfl⟩
abbrev main_c_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_cst_10 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_11 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x65 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x65 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S65x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S65x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x129 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x129 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S129x10 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S129x10 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x10 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000x1 : S_.BroadcastsInDim S50000x1 (![] : Fin 0 → Fin S50000x1.rank)
  concatenates_S50000x64_S50000x1_S50000x65_d1 : Shape.Concatenates [S50000x64, S50000x1] S50000x65 1
  bcast_S_S800000 : S_.BroadcastsInDim S800000 (![] : Fin 0 → Fin S800000.rank)
  bcast_S800000_S800000x1_0 : S800000.BroadcastsInDim S800000x1 (![0] : Fin 1 → Fin S800000x1.rank)
  bcast_S_S50000x65 : S_.BroadcastsInDim S50000x65 (![] : Fin 0 → Fin S50000x65.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x65_0_1 : S50000x1.BroadcastsInDim S50000x65 (![0, 1] : Fin 2 → Fin S50000x65.rank)
  inb_S2000x65_S2000x65_0_0 : ∀ a, (![0, 0] : Fin 2 → Nat) a + S2000x65.size a ≤ S2000x65.size a
  h_S2000x65 : 0 < S2000x65.numel
  shapeCasts_S2000x65_S2000x65 : S2000x65.ShapeCasts S2000x65
  bitsLt_bf16_f32 : FTy.bits .bf16 < FTy.bits .f32
  inb_S65x128_S65x128_0_0 : ∀ a, (![0, 0] : Fin 2 → Nat) a + S65x128.size a ≤ S65x128.size a
  h_S65x128 : 0 < S65x128.numel
  reduces_S2000x128_S2000 : S2000x128.Reduces [1] S2000
  shapeCasts_S2000_S2000x1 : S2000.ShapeCasts S2000x1
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  concatenates_S50000x128_S50000x1_S50000x129_d1 : Shape.Concatenates [S50000x128, S50000x1] S50000x129 1
  bcast_S_S50000x129 : S_.BroadcastsInDim S50000x129 (![] : Fin 0 → Fin S50000x129.rank)
  bcast_S50000x1_S50000x129_0_1 : S50000x1.BroadcastsInDim S50000x129 (![0, 1] : Fin 2 → Fin S50000x129.rank)
  inb_S2000x129_S2000x129_0_0 : ∀ a, (![0, 0] : Fin 2 → Nat) a + S2000x129.size a ≤ S2000x129.size a
  h_S2000x129 : 0 < S2000x129.numel
  shapeCasts_S2000x129_S2000x129 : S2000x129.ShapeCasts S2000x129
  inb_S129x10_S129x10_0_0 : ∀ a, (![0, 0] : Fin 2 → Nat) a + S129x10.size a ≤ S129x10.size a
  h_S129x10 : 0 < S129x10.numel
  reduces_S2000x10_S2000 : S2000x10.Reduces [1] S2000
  broadcasts_S2000x1_S2000x10 : S2000x1.Broadcasts S2000x10
  inb_S2000x10_S2000x10_0_0 : ∀ a, (![0, 0] : Fin 2 → Nat) a + S2000x10.size a ≤ S2000x10.size a
  h_S2000x10 : 0 < S2000x10.numel
  gather_S50000x65_S800000x1_S800000x65_1_0_n_n_0_1_165_wf : GatherDims.WF S50000x65 S800000x1 S800000x65 [1] [0] [] [0] [] 1 ![1, 65]
  scatter_S50000x65_S800000x1_S800000x65_1_0_0_1_wf : ScatterDims.WF S50000x65 S800000x1 S800000x65 [1] [0] [0] 1
  scatter_S50000_S800000x1_S800000_n_0_0_1_wf : ScatterDims.WF S50000 S800000x1 S800000 [] [0] [0] 1
  dot_S2000x65_S65x128_S2000x128_1_0_0_1_n_n_wf : DotDims.WF S2000x65 S65x128 S2000x128 [1] [0] [0] [1] [] []
  gather_S50000x129_S800000x1_S800000x129_1_0_n_n_0_1_1129_wf : GatherDims.WF S50000x129 S800000x1 S800000x129 [1] [0] [] [0] [] 1 ![1, 129]
  scatter_S50000x129_S800000x1_S800000x129_1_0_0_1_wf : ScatterDims.WF S50000x129 S800000x1 S800000x129 [1] [0] [0] 1
  dot_S2000x129_S129x10_S2000x10_1_0_0_1_n_n_wf : DotDims.WF S2000x129 S129x10 S2000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x65.size a ≤ S50000x65.size a
  hwx0_0 : ∀ i : grid0.Coords, EltTy.bits .f32 = 32 ∨ (Rect.block (s := S50000x65) S2000x65.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x65.size a ≤ S50000x65.size a
  hwx0_1 : ∀ i : grid0.Coords, EltTy.bits .f32 = 32 ∨ (Rect.block (s := S50000x65) S2000x65.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S65x128.size a ≤ S65x128.size a
  hwx0_2 : ∀ i : grid0.Coords, EltTy.bits .f32 = 32 ∨ (Rect.block (s := S65x128) S65x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S65x128.size a ≤ S65x128.size a
  hwx0_3 : ∀ i : grid0.Coords, EltTy.bits .f32 = 32 ∨ (Rect.block (s := S65x128) S65x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x129.size a ≤ S50000x129.size a
  hwx1_0 : ∀ i : grid1.Coords, EltTy.bits .f32 = 32 ∨ (Rect.block (s := S50000x129) S2000x129.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x129.size a ≤ S50000x129.size a
  hwx1_1 : ∀ i : grid1.Coords, EltTy.bits .f32 = 32 ∨ (Rect.block (s := S50000x129) S2000x129.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S129x10.size a ≤ S129x10.size a
  hwx1_2 : ∀ i : grid1.Coords, EltTy.bits .f32 = 32 ∨ (Rect.block (s := S129x10) S129x10.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S129x10.size a ≤ S129x10.size a
  hwx1_3 : ∀ i : grid1.Coords, EltTy.bits .f32 = 32 ∨ (Rect.block (s := S129x10) S129x10.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x10.size a ≤ S50000x10.size a
  hwx1_4 : ∀ i : grid1.Coords, EltTy.bits .f32 = 32 ∨ (Rect.block (s := S50000x10) S2000x10.size (cc1_transform_4 i) (hinb1_4 i)).WholeWords (EltTy.packing .f32)

variable [Facts₀]

def gather_S50000x65_S800000x1_S800000x65_1_0_n_n_0_1_165 : GatherDims S50000x65 S800000x1 S800000x65 where
  offsetDims := [1]
  collapsedSliceDims := [0]
  operandBatchingDims := []
  startIndicesBatchingDims := []
  startIndexMap := [0]
  indexVectorDim := 1
  sliceSizes := ![1, 65]
  wf := gather_S50000x65_S800000x1_S800000x65_1_0_n_n_0_1_165_wf
def scatter_S50000x65_S800000x1_S800000x65_1_0_0_1 : ScatterDims S50000x65 S800000x1 S800000x65 where
  updateWindowDims := [1]
  insertedWindowDims := [0]
  scatterDimsToOperandDims := [0]
  indexVectorDim := 1
  wf := scatter_S50000x65_S800000x1_S800000x65_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x65_S65x128_S2000x128_1_0_0_1_n_n : DotDims S2000x65 S65x128 S2000x128 where
  lhsContracting := [1]
  rhsContracting := [0]
  lhsNonContracting := [0]
  rhsNonContracting := [1]
  lhsBatch := []
  rhsBatch := []
  wf := dot_S2000x65_S65x128_S2000x128_1_0_0_1_n_n_wf
def gather_S50000x129_S800000x1_S800000x129_1_0_n_n_0_1_1129 : GatherDims S50000x129 S800000x1 S800000x129 where
  offsetDims := [1]
  collapsedSliceDims := [0]
  operandBatchingDims := []
  startIndicesBatchingDims := []
  startIndexMap := [0]
  indexVectorDim := 1
  sliceSizes := ![1, 129]
  wf := gather_S50000x129_S800000x1_S800000x129_1_0_n_n_0_1_1129_wf
def scatter_S50000x129_S800000x1_S800000x129_1_0_0_1 : ScatterDims S50000x129 S800000x1 S800000x129 where
  updateWindowDims := [1]
  insertedWindowDims := [0]
  scatterDimsToOperandDims := [0]
  indexVectorDim := 1
  wf := scatter_S50000x129_S800000x1_S800000x129_1_0_0_1_wf
def dot_S2000x129_S129x10_S2000x10_1_0_0_1_n_n : DotDims S2000x129 S129x10 S2000x10 where
  lhsContracting := [1]
  rhsContracting := [0]
  lhsNonContracting := [0]
  rhsNonContracting := [1]
  lhsBatch := []
  rhsBatch := []
  wf := dot_S2000x129_S129x10_S2000x10_1_0_0_1_n_n_wf

abbrev win0_0 : Pipeline.Window sig grid0 :=
  Pipeline.Window.ofSpec (Memref.whole main_v5) S2000x65.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S2000x65.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S65x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S65x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v27) S2000x129.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S2000x129.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S129x10.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S129x10.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S2000x10.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S65x128 : Shape := ⟨2, ![65, 128]⟩
abbrev S129x10 : Shape := ⟨2, ![129, 10]⟩
abbrev S1x800000 : Shape := ⟨2, ![1, 800000]⟩
abbrev S800000 : Shape := ⟨1, ![800000]⟩
abbrev S_ : Shape := ⟨0, ![]⟩
abbrev S50000x1 : Shape := ⟨2, ![50000, 1]⟩
abbrev S50000x65 : Shape := ⟨2, ![50000, 65]⟩
abbrev S800000x1 : Shape := ⟨2, ![800000, 1]⟩
abbrev S800000x65 : Shape := ⟨2, ![800000, 65]⟩
abbrev S50000 : Shape := ⟨1, ![50000]⟩
abbrev S50000x128 : Shape := ⟨2, ![50000, 128]⟩
abbrev S50000x129 : Shape := ⟨2, ![50000, 129]⟩
abbrev S800000x129 : Shape := ⟨2, ![800000, 129]⟩
abbrev S50000x10 : Shape := ⟨2, ![50000, 10]⟩

abbrev nBuf : Space → Nat
  | .hbm => 110
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S65x128, .f32⟩
  | .hbm, ⟨3, _⟩ => ⟨S65x128, .f32⟩
  | .hbm, ⟨4, _⟩ => ⟨S129x10, .f32⟩
  | .hbm, ⟨5, _⟩ => ⟨S129x10, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S50000x1, .f32⟩
  | .hbm, ⟨12, _⟩ => ⟨S50000x65, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x65, .f32⟩
  | .hbm, ⟨22, _⟩ => ⟨S_, .f32⟩
  | .hbm, ⟨23, _⟩ => ⟨S50000x65, .f32⟩
  | .hbm, ⟨24, _⟩ => ⟨S800000x1, .i32⟩
  | .hbm, ⟨25, _⟩ => ⟨S50000x65, .f32⟩
  | .hbm, ⟨26, _⟩ => ⟨S_, .f32⟩
  | .hbm, ⟨27, _⟩ => ⟨S800000, .f32⟩
  | .hbm, ⟨28, _⟩ => ⟨S_, .f32⟩
  | .hbm, ⟨29, _⟩ => ⟨S50000, .f32⟩
  | .hbm, ⟨30, _⟩ => ⟨S800000x1, .i32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x65, .f32⟩
  | .hbm, ⟨37, _⟩ => ⟨S50000x65, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S_, .f32⟩
  | .hbm, ⟨43, _⟩ => ⟨S50000, .f32⟩
  | .hbm, ⟨44, _⟩ => ⟨S50000x1, .f32⟩
  | .hbm, ⟨45, _⟩ => ⟨S50000x1, .f32⟩
  | .hbm, ⟨46, _⟩ => ⟨S_, .f32⟩
  | .hbm, ⟨47, _⟩ => ⟨S50000x1, .f32⟩
  | .hbm, ⟨48, _⟩ => ⟨S50000x1, .f32⟩
  | .hbm, ⟨49, _⟩ => ⟨S50000x128, .f32⟩
  | .hbm, ⟨50, _⟩ => ⟨S50000x128, .f32⟩
  | .hbm, ⟨51, _⟩ => ⟨S_, .f32⟩
  | .hbm, ⟨52, _⟩ => ⟨S50000x128, .f32⟩
  | .hbm, ⟨53, _⟩ => ⟨S50000x128, .f32⟩
  | .hbm, ⟨54, _⟩ => ⟨S_, .f32⟩
  | .hbm, ⟨55, _⟩ => ⟨S50000x1, .f32⟩
  | .hbm, ⟨56, _⟩ => ⟨S50000x129, .f32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x129, .f32⟩
  | .hbm, ⟨66, _⟩ => ⟨S_, .f32⟩
  | .hbm, ⟨67, _⟩ => ⟨S50000x129, .f32⟩
  | .hbm, ⟨68, _⟩ => ⟨S800000x1, .i32⟩
  | .hbm, ⟨69, _⟩ => ⟨S50000x129, .f32⟩
  | .hbm, ⟨70, _⟩ => ⟨S_, .f32⟩
  | .hbm, ⟨71, _⟩ => ⟨S800000, .f32⟩
  | .hbm, ⟨72, _⟩ => ⟨S_, .f32⟩
  | .hbm, ⟨73, _⟩ => ⟨S50000, .f32⟩
  | .hbm, ⟨74, _⟩ => ⟨S800000x1, .i32⟩
  | .hbm, ⟨75, _⟩ => ⟨S50000, .f32⟩
  | .hbm, ⟨76, _⟩ => ⟨S_, .f32⟩
  | .hbm, ⟨77, _⟩ => ⟨S50000, .f32⟩
  | .hbm, ⟨78, _⟩ => ⟨S50000, .f32⟩
  | .hbm, ⟨79, _⟩ => ⟨S50000x1, .f32⟩
  | .hbm, ⟨80, _⟩ => ⟨S50000x129, .f32⟩
  | .hbm, ⟨81, _⟩ => ⟨S50000x129, .f32⟩
  | .hbm, ⟨82, _⟩ => ⟨S50000x10, .f32⟩
  | .hbm, ⟨83, _⟩ => ⟨S50000x10, .f32⟩
  | .hbm, ⟨84, _⟩ => ⟨S50000x10, .f32⟩
  | .hbm, ⟨85, _⟩ => ⟨S50000x10, .f32⟩
  | .hbm, ⟨86, _⟩ => ⟨S_, .f32⟩
  | .hbm, ⟨87, _⟩ => ⟨S50000, .f32⟩
  | .hbm, ⟨88, _⟩ => ⟨S50000x1, .f32⟩
  | .hbm, ⟨89, _⟩ => ⟨S50000x1, .f32⟩
  | .hbm, ⟨90, _⟩ => ⟨S_, .f32⟩
  | .hbm, ⟨91, _⟩ => ⟨S50000x1, .f32⟩
  | .hbm, ⟨92, _⟩ => ⟨S50000x1, .f32⟩
  | .hbm, ⟨93, _⟩ => ⟨S50000x10, .f32⟩
  | .hbm, ⟨94, _⟩ => ⟨S50000x10, .f32⟩
  | .hbm, ⟨95, _⟩ => ⟨S_, .f32⟩
  | .hbm, ⟨96, _⟩ => ⟨S50000, .f32⟩
  | .hbm, ⟨97, _⟩ => ⟨S_, .f32⟩
  | .hbm, ⟨98, _⟩ => ⟨S50000, .f32⟩
  | .hbm, ⟨99, _⟩ => ⟨S50000, .f32⟩
  | .hbm, ⟨100, _⟩ => ⟨S50000x1, .f32⟩
  | .hbm, ⟨101, _⟩ => ⟨S50000x10, .f32⟩
  | .hbm, ⟨102, _⟩ => ⟨S50000x10, .f32⟩
  | .hbm, ⟨103, _⟩ => ⟨S50000x10, .f32⟩
  | .hbm, ⟨104, _⟩ => ⟨S_, .f32⟩
  | .hbm, ⟨105, _⟩ => ⟨S50000, .f32⟩
  | .hbm, ⟨106, _⟩ => ⟨S50000x1, .f32⟩
  | .hbm, ⟨107, _⟩ => ⟨S50000x1, .f32⟩
  | .hbm, ⟨108, _⟩ => ⟨S50000x10, .f32⟩
  | .hbm, ⟨109, _⟩ => ⟨S50000x10, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call0_v0 : Ref sig .tc := ⟨.hbm, 41, rfl⟩
abbrev main_call0_cst : Ref sig .tc := ⟨.hbm, 42, rfl⟩
abbrev main_call0_v1 : Ref sig .tc := ⟨.hbm, 43, rfl⟩
abbrev main_call0_v2 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_call1_cst : Ref sig .tc := ⟨.hbm, 51, rfl⟩
abbrev main_call1_v0 : Ref sig .tc := ⟨.hbm, 52, rfl⟩
abbrev main_v33 : Ref sig .tc := ⟨.hbm, 53, rfl⟩
abbrev main_cst_6 : Ref sig .tc := ⟨.hbm, 54, rfl⟩
abbrev main_v34 : Ref sig .tc := ⟨.hbm, 55, rfl⟩
abbrev main_v35 : Ref sig .tc := ⟨.hbm, 56, rfl⟩
abbrev main_c_7 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_10 : Ref sig .tc := ⟨.hbm, 70, rfl⟩
abbrev main_v46 : Ref sig .tc := ⟨.hbm, 71, rfl⟩
abbrev main_cst_11 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_12 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_call2_v0 : Ref sig .tc := ⟨.hbm, 85, rfl⟩
abbrev main_call2_cst : Ref sig .tc := ⟨.hbm, 86, rfl⟩
abbrev main_call2_v1 : Ref sig .tc := ⟨.hbm, 87, rfl⟩
abbrev main_call2_v2 : Ref sig .tc := ⟨.hbm, 88, rfl⟩
abbrev main_v58 : Ref sig .tc := ⟨.hbm, 89, rfl⟩
abbrev main_cst_13 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_call3_cst : Ref sig .tc := ⟨.hbm, 95, rfl⟩
abbrev main_call3_v0 : Ref sig .tc := ⟨.hbm, 96, rfl⟩
abbrev main_call3_cst_0 : Ref sig .tc := ⟨.hbm, 97, rfl⟩
abbrev main_call3_v1 : Ref sig .tc := ⟨.hbm, 98, rfl⟩
abbrev main_call3_v2 : Ref sig .tc := ⟨.hbm, 99, rfl⟩
abbrev main_call3_v3 : Ref sig .tc := ⟨.hbm, 100, rfl⟩
abbrev main_call3_v4 : Ref sig .tc := ⟨.hbm, 101, rfl⟩
abbrev main_call3_v5 : Ref sig .tc := ⟨.hbm, 102, rfl⟩
abbrev main_call3_v6 : Ref sig .tc := ⟨.hbm, 103, rfl⟩
abbrev main_call3_cst_1 : Ref sig .tc := ⟨.hbm, 104, rfl⟩
abbrev main_call3_v7 : Ref sig .tc := ⟨.hbm, 105, rfl⟩
abbrev main_call3_v8 : Ref sig .tc := ⟨.hbm, 106, rfl⟩
abbrev main_call3_v9 : Ref sig .tc := ⟨.hbm, 107, rfl⟩
abbrev main_call3_v10 : Ref sig .tc := ⟨.hbm, 108, rfl⟩
abbrev main_v63 : Ref sig .tc := ⟨.hbm, 109, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000x1 : S_.BroadcastsInDim S50000x1 (![] : Fin 0 → Fin S50000x1.rank)
  concatenates_S50000x64_S50000x1_S50000x65_d1 : Shape.Concatenates [S50000x64, S50000x1] S50000x65 1
  bcast_S_S800000 : S_.BroadcastsInDim S800000 (![] : Fin 0 → Fin S800000.rank)
  bcast_S800000_S800000x1_0 : S800000.BroadcastsInDim S800000x1 (![0] : Fin 1 → Fin S800000x1.rank)
  bcast_S_S50000x65 : S_.BroadcastsInDim S50000x65 (![] : Fin 0 → Fin S50000x65.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x65_0_1 : S50000x1.BroadcastsInDim S50000x65 (![0, 1] : Fin 2 → Fin S50000x65.rank)
  reducesTo_S50000x128_S50000_d1 : S50000x128.ReducesTo [1] S50000
  h_S_ : 0 < S_.numel
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  concatenates_S50000x128_S50000x1_S50000x129_d1 : Shape.Concatenates [S50000x128, S50000x1] S50000x129 1
  bcast_S_S50000x129 : S_.BroadcastsInDim S50000x129 (![] : Fin 0 → Fin S50000x129.rank)
  bcast_S50000x1_S50000x129_0_1 : S50000x1.BroadcastsInDim S50000x129 (![0, 1] : Fin 2 → Fin S50000x129.rank)
  reducesTo_S50000x10_S50000_d1 : S50000x10.ReducesTo [1] S50000
  bcast_S50000x1_S50000x10_0_1 : S50000x1.BroadcastsInDim S50000x10 (![0, 1] : Fin 2 → Fin S50000x10.rank)
  gather_S50000x65_S800000x1_S800000x65_1_0_n_n_0_1_165_wf : GatherDims.WF S50000x65 S800000x1 S800000x65 [1] [0] [] [0] [] 1 ![1, 65]
  scatter_S50000x65_S800000x1_S800000x65_1_0_0_1_wf : ScatterDims.WF S50000x65 S800000x1 S800000x65 [1] [0] [0] 1
  scatter_S50000_S800000x1_S800000_n_0_0_1_wf : ScatterDims.WF S50000 S800000x1 S800000 [] [0] [0] 1
  dot_S50000x65_S65x128_S50000x128_1_0_0_1_n_n_wf : DotDims.WF S50000x65 S65x128 S50000x128 [1] [0] [0] [1] [] []
  gather_S50000x129_S800000x1_S800000x129_1_0_n_n_0_1_1129_wf : GatherDims.WF S50000x129 S800000x1 S800000x129 [1] [0] [] [0] [] 1 ![1, 129]
  scatter_S50000x129_S800000x1_S800000x129_1_0_0_1_wf : ScatterDims.WF S50000x129 S800000x1 S800000x129 [1] [0] [0] 1
  dot_S50000x129_S129x10_S50000x10_1_0_0_1_n_n_wf : DotDims.WF S50000x129 S129x10 S50000x10 [1] [0] [0] [1] [] []

variable [Facts₀]

def gather_S50000x65_S800000x1_S800000x65_1_0_n_n_0_1_165 : GatherDims S50000x65 S800000x1 S800000x65 where
  offsetDims := [1]
  collapsedSliceDims := [0]
  operandBatchingDims := []
  startIndicesBatchingDims := []
  startIndexMap := [0]
  indexVectorDim := 1
  sliceSizes := ![1, 65]
  wf := gather_S50000x65_S800000x1_S800000x65_1_0_n_n_0_1_165_wf
def scatter_S50000x65_S800000x1_S800000x65_1_0_0_1 : ScatterDims S50000x65 S800000x1 S800000x65 where
  updateWindowDims := [1]
  insertedWindowDims := [0]
  scatterDimsToOperandDims := [0]
  indexVectorDim := 1
  wf := scatter_S50000x65_S800000x1_S800000x65_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x65_S65x128_S50000x128_1_0_0_1_n_n : DotDims S50000x65 S65x128 S50000x128 where
  lhsContracting := [1]
  rhsContracting := [0]
  lhsNonContracting := [0]
  rhsNonContracting := [1]
  lhsBatch := []
  rhsBatch := []
  wf := dot_S50000x65_S65x128_S50000x128_1_0_0_1_n_n_wf
def gather_S50000x129_S800000x1_S800000x129_1_0_n_n_0_1_1129 : GatherDims S50000x129 S800000x1 S800000x129 where
  offsetDims := [1]
  collapsedSliceDims := [0]
  operandBatchingDims := []
  startIndicesBatchingDims := []
  startIndexMap := [0]
  indexVectorDim := 1
  sliceSizes := ![1, 129]
  wf := gather_S50000x129_S800000x1_S800000x129_1_0_n_n_0_1_1129_wf
def scatter_S50000x129_S800000x1_S800000x129_1_0_0_1 : ScatterDims S50000x129 S800000x1 S800000x129 where
  updateWindowDims := [1]
  insertedWindowDims := [0]
  scatterDimsToOperandDims := [0]
  indexVectorDim := 1
  wf := scatter_S50000x129_S800000x1_S800000x129_1_0_0_1_wf
def dot_S50000x129_S129x10_S50000x10_1_0_0_1_n_n : DotDims S50000x129 S129x10 S50000x10 where
  lhsContracting := [1]
  rhsContracting := [0]
  lhsNonContracting := [0]
  rhsNonContracting := [1]
  lhsBatch := []
  rhsBatch := []
  wf := dot_S50000x129_S129x10_S50000x10_1_0_0_1_n_n_wf

class Facts : Prop extends Facts₀ where

variable [Facts]
-- ==== Proof.RunOut.lean ====
/-
  The idealized kernel's run with its result array named. The program is four segments — host operations, the first
  dense layer on the grid, host operations, the second dense layer on the grid — and the thread state after the last one
  holds every unscoped buffer at the last boundary's contents `Gen.W4`. Reading the final memory against that state gives
  the result buffer at `Gen.W4 m ρ c main_v47` beside the six argument arrays as launched.
-/
import proofs.«138851_j12524124635376_1_alg».proof.Proof.Gen.KernelIdeal.Frame

set_option maxRecDepth 16384

noncomputable section

namespace Cert.KernelIdeal.RunOut

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last boundary's
    contents and the arguments as launched. -/
theorem run_out : θ_run defs (onTc (τ := τ) (main (F := F))) ⟨m, fun _ => 0, ρ⟩ (fun r => ∀ c : Dev nD,
      r.2.mem ((c.tc : Thread nD τ).loc main_v47) = W4 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v47 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.RunOut

end
-- ==== Proof.LibDenseRows.lean ====
/-
  Row-wise dense algebra read at an index given by coordinates, at the ideal values: a plain two-dimensional
  contraction `[M, K] · [K, N]` (the kernel's matrix product into a zero accumulator and the host's `dot_general`) as a sum
  over `k : Fin K` of the left operand's row times the right operand's column; a bias vector `[N]` laid along every row of
  `[M, N]` (both spellings: cast to one row then broadcast, and two `broadcast_in_dim`s); a concatenation of two blocks side
  by side along the columns; and a sum along the columns of `[M, N]` (the lane reduction and the host's `reduce`), plain
  and laid back out as a column `[M, 1]` that is broadcast over the columns.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Cert.DenseRows

open Idealize.ShloMosaic Idealize.ShloMosaic.ValueIdx
open scoped BigOperators

/-! ## A plain contraction `[M, K] · [K, N]` -/

/-- For dimension numbers that contract the left operand's columns with the right operand's rows and keep the left rows and
    the right columns in place, the sum over the contraction index at `(r, c)` is the sum over `k : Fin K` of the left
    operand at `(r, k)` times the right operand at `(k, c)`. -/
theorem sum_contr_plain {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : (⟨2, ![M, K]⟩ : Shape).Idx → EReal) (W : (⟨2, ![K, N]⟩ : Shape).Idx → EReal) (r : Fin M) (c : Fin N) :
    ∑ k : D.contr.Idx, A (D.lhsIdx (ix2 r c) k) * W (D.rhsIdx (ix2 r c) k) = ∑ k : Fin K, A (ix2 r k) * W (ix2 k c) := by
  rw [← Equiv.sum_comp (contrEquiv1 D K hrank hsize).symm]
  refine Finset.sum_congr rfl fun k _ => ?_
  have e1 : D.lhsIdx (ix2 r c) ((contrEquiv1 D K hrank hsize).symm k) = ix2 r k := by
    funext a; apply Fin.ext
    match a with
    | ⟨0, _⟩ => exact hl0 _ _
    | ⟨1, _⟩ => exact (D.lhsIdx_val_of_single hl _ _).trans (contrEquiv1_symm_val D K hrank hsize k)
  have e2 : D.rhsIdx (ix2 r c) ((contrEquiv1 D K hrank hsize).symm k) = ix2 k c := by
    funext a; apply Fin.ext
    match a with
    | ⟨0, _⟩ => exact (D.rhsIdx_val_of_single hr _ _).trans (contrEquiv1_symm_val D K hrank hsize k)
    | ⟨1, _⟩ => exact hr1 _ _
  rw [e1, e2]

/-- The kernel's matrix product into the zero accumulator, at `(r, c)`. -/
theorem matmul_zero_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    matmul D none A W (constant (F := Ideal) ⟨2, ![M, N]⟩ .f32 0x00000000#32) (ix2 r c) = ∑ k : Fin K, A (ix2 r k) * W (ix2 k c) :=
  (Ideal.matmul_constant_zero_apply D none A W (ix2 r c)).trans (sum_contr_plain D hl hr hrank hsize hl0 hr1 A W r c)

/-- The host's `dot_general` with the same dimension numbers, at `(r, c)`. -/
theorem dotGeneral_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    Host.dotGeneral D none A W (ix2 r c) = ∑ k : Fin K, A (ix2 r k) * W (ix2 k c) :=
  (Ideal.dotGeneral_apply D none .single A W (ix2 r c)).trans (sum_contr_plain D hl hr hrank hsize hl0 hr1 A W r c)

/-! ## A bias vector along every row -/

variable {α : Type}

/-- A vector `[N]` cast to one row `[1, N]` and broadcast down `M` rows reads, at `(r, c)`, the vector at `c`. -/
theorem rowBias_cast_apply {M N : ℕ} (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (r : Fin M) (c : Fin N) :
    broadcastTo ⟨2, ![M, N]⟩ (shapeCast ⟨2, ![1, N]⟩ b h1) h2 (ix2 r c) = b (ix1 c) :=
  (broadcastTo_1b_ab_apply _ h2 r c).trans (shapeCast_a_1a_apply b h1 0 c)

/-- A vector `[N]` placed on axis 1 of `[1, N]` reads, at `(u, c)`, the vector at `c`. -/
theorem broadcastInDim_a_1a_apply {N : ℕ} (b : (⟨1, ![N]⟩ : Shape).Idx → α)
    (h : (⟨1, ![N]⟩ : Shape).BroadcastsInDim ⟨2, ![1, N]⟩ ![1]) (u : Fin 1) (c : Fin N) :
    broadcastInDim ⟨2, ![1, N]⟩ ![1] h b (ix2 u c) = b (ix1 c) := by
  refine broadcastInDim_apply ![1] h b (ix2 u c) (ix1 c) fun a => ?_
  match a with
  | ⟨0, _⟩ =>
    show c.val = if N = 1 then 0 else c.val
    split
    · have := c.isLt; omega
    · rfl

/-- The host's spelling of the same: two `broadcast_in_dim`s, `[N]` to `[1, N]` to `[M, N]`. -/
theorem rowBias_inDim_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 b) (ix2 r c) = b (ix1 c) :=
  (broadcastInDim_oneRow_apply h2 _ r c).trans (broadcastInDim_a_1a_apply b h1 0 c)

/-! ## Two blocks side by side -/

/-- Two blocks `[M, A]` and `[M, B]` concatenated along the columns: a column left of `A` reads the first block. -/
theorem concat_cols_left {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : k.val < A) :
    concatenate ⟨2, ![M, C]⟩ (1 : Fin 2) [⟨⟨2, ![M, A]⟩, x⟩, ⟨⟨2, ![M, B]⟩, y⟩] h (ix2 r k) = x (ix2 r ⟨k.val, hk⟩) :=
  concatenate_pair_apply_left (1 : Fin 2) x y h (ix2 r k) rfl (ix2 r ⟨k.val, hk⟩) fun b => by
    match b with
    | ⟨0, _⟩ => rfl
    | ⟨1, _⟩ => rfl

/-- … and a column from `A` on reads the second block, `A` columns to the left. -/
theorem concat_cols_right {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : A ≤ k.val)
    (hk' : k.val - A < B) :
    concatenate ⟨2, ![M, C]⟩ (1 : Fin 2) [⟨⟨2, ![M, A]⟩, x⟩, ⟨⟨2, ![M, B]⟩, y⟩] h (ix2 r k) = y (ix2 r ⟨k.val - A, hk'⟩) :=
  concatenate_pair_apply_right (1 : Fin 2) x y h (ix2 r k) rfl rfl (ix2 r ⟨k.val - A, hk'⟩)
    (fun b hb => by
      match b with
      | ⟨0, _⟩ => rfl
      | ⟨1, _⟩ => exact absurd rfl hb)
    (by show k.val - A + A = k.val; omega)

/-! ## A sum along the columns -/

/-- The lane reduction of `[M, N]` along its columns from the zero word, at row `r`. -/
theorem laneSum_apply {M N : ℕ} (src : FVec Ideal ⟨2, ![M, N]⟩ .f32) (h : (⟨2, ![M, N]⟩ : Shape).Reduces [(1 : Fin 2)] ⟨1, ![M]⟩)
    (hφ : FKind.Formats .f32) (hacc : (0x00000000#32 : BitVec 32) = FKind.add.neutral .f32 hφ)
    (hlift : ∀ (r : Fin M) (k : Fin N), h.lift (ix1 r) k = ix2 r k) (r : Fin M) :
    multiReduction .add [(1 : Fin 2)] ⟨1, ![M]⟩ src 0x00000000#32 h hφ hacc (ix1 r) = ∑ k : Fin N, src (ix2 r k) :=
  (Ideal.multiReduction_add_single src 0x00000000#32 h hφ hacc (ix1 r)).trans
    (Finset.sum_congr rfl fun k _ => congrArg src (hlift r k))

/-- The host's `reduce` with `add` along the columns from an initial scalar, at row `r`. -/
theorem hostRowSum_apply {M N : ℕ} (x : FVec Ideal ⟨2, ![M, N]⟩ .f32) (init : (⟨0, ![]⟩ : Shape).Idx → Ideal .f32)
    (h' : (⟨2, ![M, N]⟩ : Shape).ReducesTo [(1 : Fin 2)] ⟨1, ![M]⟩) (hu : 0 < (⟨0, ![]⟩ : Shape).numel)
    (h : (⟨2, ![M, N]⟩ : Shape).Reduces [(1 : Fin 2)] ⟨1, ![M]⟩)
    (hlift : ∀ (r : Fin M) (k : Fin N), h.lift (ix1 r) k = ix2 r k) (r : Fin M) :
    Host.reduceAdd x init h' hu (ix1 r) = init (Shape.Idx.first hu) + ∑ k : Fin N, x (ix2 r k) :=
  (hostReduceAdd_apply x init h' hu (ix1 r)).trans
    ((Ideal.hostReduceAdd_single h' h x _ (ix1 r)).trans
      (congrArg (init (Shape.Idx.first hu) + ·) (Finset.sum_congr rfl fun k _ => congrArg x (hlift r k))))

/-- A vector `[M]` placed on axis 0 of `[M, 1]` reads, at `(r, u)`, the vector at `r`. -/
theorem broadcastInDim_a_a1_apply {M : ℕ} (v : (⟨1, ![M]⟩ : Shape).Idx → α)
    (h : (⟨1, ![M]⟩ : Shape).BroadcastsInDim ⟨2, ![M, 1]⟩ ![0]) (r : Fin M) (u : Fin 1) :
    broadcastInDim ⟨2, ![M, 1]⟩ ![0] h v (ix2 r u) = v (ix1 r) := by
  refine broadcastInDim_apply ![0] h v (ix2 r u) (ix1 r) fun a => ?_
  match a with
  | ⟨0, _⟩ =>
    show r.val = if M = 1 then 0 else r.val
    split
    · have := r.isLt; omega
    · rfl

/-- A column `[M, 1]` laid over the columns of `[M, N]` by `broadcast_in_dim` reads, at `(r, c)`, the column at row `r`. -/
theorem broadcastInDim_a1_ab_apply {M N : ℕ} (v : (⟨2, ![M, 1]⟩ : Shape).Idx → α)
    (h : (⟨2, ![M, 1]⟩ : Shape).BroadcastsInDim ⟨2, ![M, N]⟩ ![0, 1]) (r : Fin M) (c : Fin N) :
    broadcastInDim ⟨2, ![M, N]⟩ ![0, 1] h v (ix2 r c) = v (ix2 r (0 : Fin 1)) := by
  refine broadcastInDim_apply ![0, 1] h v (ix2 r c) (ix2 r (0 : Fin 1)) fun a => ?_
  match a with
  | ⟨0, _⟩ =>
    show r.val = if M = 1 then 0 else r.val
    split
    · have := r.isLt; omega
    · rfl
  | ⟨1, _⟩ => rfl

end Cert.DenseRows

end
-- ==== Proof.LibColumnLayout.lean ====
/-
  Two layout operations read at an index given by coordinates, for a column kept as a trailing unit axis
  (`keepdims=True`): a vector `[a]` cast to a column `[a, 1]`, and a column `[a, 1]` broadcast along the rows of
  `[a, b]`. Each reads one element of its operand: the one with the same row.
-/
import Idealize.ShloMosaic.Lib.ValueLayout

namespace Cert.ColumnLayout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.SageRows.lean ====
/-
  One dense layer of the two-layer network, row by row, over the extended reals. A row of a layer's result depends only on
  the same row of its two operands: with `o c = Σ_k a k · W k c + Σ_k b k · W' k c` the row is scaled to
  `o c / (√(Σ_j o j²) + ε)`; the first layer then clamps at zero, the second takes the row's log-softmax
  `(u c − max u) − log Σ_j exp (u j − max u)`. Both spellings of these operations — vector operations on a block of rows,
  with lane reductions and a column kept as a trailing unit axis; and array operations with `reduce` and
  `broadcast_in_dim` — are read here at an entry `(r, c)` as ONE function of row `r` of the operands, for any number of
  rows. Nothing here needs the entries to be finite: only `0 + x = x` and `max ⊥ x = x`-style facts are used.
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import proofs.«138851_j12524124635376_1_alg».proof.Proof.LibDenseRows
import proofs.«138851_j12524124635376_1_alg».proof.Proof.LibColumnLayout

noncomputable section

namespace Cert.SageRows

open Idealize.ShloMosaic Idealize.ShloMosaic.ValueIdx Cert.DenseRows Cert.ColumnLayout
open scoped BigOperators

/-! ## The row functions -/

/-- The ε added to a row's norm: the f32 word both programs print. -/
def eps : EReal := Ideal.ofBits .f32 0x322BCC77#32

/-- The value a row maximum starts from: the f32 word of −∞, as both programs print it. -/
def negInf : EReal := Ideal.ofBits .f32 0xFF800000#32

/-- Entry `c` of a row before scaling: the row `a` through `W` plus the row `b` through `W'`. -/
def pre {K N : ℕ} (a b : Fin K → EReal) (W W' : Fin K → Fin N → EReal) (c : Fin N) : EReal :=
  (∑ k, a k * W k c) + (∑ k, b k * W' k c)

/-- A row divided by its Euclidean norm plus ε. -/
def unitRow {N : ℕ} (o : Fin N → EReal) (c : Fin N) : EReal :=
  Ideal.div (o c) (Ideal.sqrt (∑ j, o j * o j) + eps)

/-- A row's maximum, folded from −∞. -/
def rowMax {N : ℕ} (u : Fin N → EReal) : EReal := (Finset.univ : Finset (Fin N)).fold max negInf u

/-- A row's log-softmax, shifted by the row's maximum. -/
def logSoftmaxRow {N : ℕ} (u : Fin N → EReal) (c : Fin N) : EReal :=
  (u c - rowMax u) - Ideal.log (∑ j, Ideal.exp (u j - rowMax u))

/-- The first layer's row: scaled to the unit sphere, then clamped at the zero word. -/
def layer1Row {K N : ℕ} (a b : Fin K → EReal) (W W' : Fin K → Fin N → EReal) (c : Fin N) : EReal :=
  max (unitRow (pre a b W W') c) (Ideal.ofBits .f32 0x00000000#32)

/-- The second layer's row: scaled to the unit sphere, then its log-softmax. -/
def layer2Row {K N : ℕ} (a b : Fin K → EReal) (W W' : Fin K → Fin N → EReal) (c : Fin N) : EReal :=
  logSoftmaxRow (unitRow (pre a b W W')) c

variable {M K N : ℕ}

/-- A lane reduction's source index: the reduced index `r` with column `k` put back is `(r, k)`. -/
theorem lift_cols (h : (⟨2, ![M, N]⟩ : Shape).Reduces [(1 : Fin 2)] ⟨1, ![M]⟩) (r : Fin M) (k : Fin N) :
    h.lift (ix1 r) k = ix2 r k := by
  funext c; apply Fin.ext
  fin_cases c <;> rfl

/-! ## The vector spelling (a block of rows in the kernel) -/

/-- The two matrix products into zero accumulators, summed, at `(r, c)`. -/
theorem kernel_pre_apply (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (x0 x1 : FVec Ideal ⟨2, ![M, K]⟩ .f32) (w0 w1 : FVec Ideal ⟨2, ![K, N]⟩ .f32)
    (hc : (⟨2, ![M, K]⟩ : Shape).ShapeCasts ⟨2, ![M, K]⟩) (hb : (FTy.bf16).bits < (FTy.f32).bits) (r : Fin M) (c : Fin N) :
    addf (matmul D none (truncf .bf16 (shapeCast ⟨2, ![M, K]⟩ x0 hc) hb) (truncf .bf16 w0 hb) (constant (F := Ideal) ⟨2, ![M, N]⟩ .f32 0x00000000#32))
        (matmul D none (truncf .bf16 (shapeCast ⟨2, ![M, K]⟩ x1 hc) hb) (truncf .bf16 w1 hb) (constant (F := Ideal) ⟨2, ![M, N]⟩ .f32 0x00000000#32)) (ix2 r c)
      = pre (fun k => x0 (ix2 r k)) (fun k => x1 (ix2 r k)) (fun k j => w0 (ix2 k j)) (fun k j => w1 (ix2 k j)) c := by
  rw [shapeCast_self, shapeCast_self]
  refine (addf_apply _ _ _).trans ?_
  rw [matmul_zero_plain_apply D hl hr hrank hsize hl0 hr1, matmul_zero_plain_apply D hl hr hrank hsize hl0 hr1]
  rfl

/-- A row's norm kept as a column `[M, 1]` — lane sum of the squares, cast to a column, root, plus ε — broadcast over the
    columns and divided into the block, at `(r, c)`. -/
theorem kernel_unit_apply (o : FVec Ideal ⟨2, ![M, N]⟩ .f32)
    (h : (⟨2, ![M, N]⟩ : Shape).Reduces [(1 : Fin 2)] ⟨1, ![M]⟩) (hφ : FKind.Formats .f32)
    (hacc : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, N]⟩) (r : Fin M) (c : Fin N) :
    divf o (broadcastTo ⟨2, ![M, N]⟩ (addf (sqrt (shapeCast ⟨2, ![M, 1]⟩ (multiReduction .add [(1 : Fin 2)] ⟨1, ![M]⟩ (mulf o o) 0x00000000#32 h hφ hacc) hc))
        (broadcast ⟨2, ![M, 1]⟩ (Scalar.ofBits (F := Ideal) .f32 0x322BCC77#32))) hb) (ix2 r c)
      = unitRow (fun j => o (ix2 r j)) c := by
  refine (divf_apply _ _ _).trans ?_
  rw [broadcastTo_a1_ab_apply]
  refine congrArg (Ideal.div (o (ix2 r c))) ?_
  refine (addf_apply _ _ _).trans ?_
  refine congrArg (· + eps) ?_
  show Ideal.sqrt (shapeCast ⟨2, ![M, 1]⟩ _ hc (ix2 r (0 : Fin 1))) = _
  rw [shapeCast_a_a1_apply, laneSum_apply _ h hφ hacc (lift_cols h)]
  rfl

/-- The row maximum kept as a column and broadcast over the columns, at `(r, c)`. -/
theorem kernel_rowMax_apply (u : FVec Ideal ⟨2, ![M, N]⟩ .f32)
    (h : (⟨2, ![M, N]⟩ : Shape).Reduces [(1 : Fin 2)] ⟨1, ![M]⟩) (hφ : FKind.Formats .f32)
    (haccm : (0xFF800000#32 : BitVec 32) = FKind.maximumf.neutral .f32 hφ)
    (hc : (⟨1, ![M]⟩ : Shape).ShapeCasts ⟨2, ![M, 1]⟩) (hb : (⟨2, ![M, 1]⟩ : Shape).Broadcasts ⟨2, ![M, N]⟩) (r : Fin M) (c : Fin N) :
    broadcastTo ⟨2, ![M, N]⟩ (shapeCast ⟨2, ![M, 1]⟩ (multiReduction .maximumf [(1 : Fin 2)] ⟨1, ![M]⟩ u 0xFF800000#32 h hφ haccm) hc) hb (ix2 r c)
      = rowMax (fun j => u (ix2 r j)) := by
  rw [broadcastTo_a1_ab_apply, shapeCast_a_a1_apply, Ideal.multiReduction_maximumf_single]
  unfold rowMax
  refine congrArg (Finset.fold max _ · _) ?_
  exact funext fun k => congrArg u (lift_cols h r k)

/-- The log-softmax of every row of a block, at `(r, c)`. -/
theorem kernel_logSoftmax_apply (u : FVec Ideal ⟨2, ![M, N]⟩ .f32)
    (h : (⟨2, ![M, N]⟩ : Shape).Reduces [(1 : Fin 2)] ⟨1, ![M]⟩) (hφ : FKind.Formats .f32)
    (hacc : (0x00000000#32 : BitVec 32) = FKind.add.neutral .f32 hφ)
    (haccm : (0xFF800000#32 : BitVec 32) = FKind.maximumf.neutral .f32 hφ)
    (hc : (⟨1, ![M]⟩ : Shape).ShapeCasts ⟨2, ![M, 1]⟩) (hb : (⟨2, ![M, 1]⟩ : Shape).Broadcasts ⟨2, ![M, N]⟩) (r : Fin M) (c : Fin N) :
    subf (subf u (broadcastTo ⟨2, ![M, N]⟩ (shapeCast ⟨2, ![M, 1]⟩ (multiReduction .maximumf [(1 : Fin 2)] ⟨1, ![M]⟩ u 0xFF800000#32 h hφ haccm) hc) hb))
        (broadcastTo ⟨2, ![M, N]⟩ (log (shapeCast ⟨2, ![M, 1]⟩ (multiReduction .add [(1 : Fin 2)] ⟨1, ![M]⟩
          (exp (subf u (broadcastTo ⟨2, ![M, N]⟩ (shapeCast ⟨2, ![M, 1]⟩ (multiReduction .maximumf [(1 : Fin 2)] ⟨1, ![M]⟩ u 0xFF800000#32 h hφ haccm) hc) hb)))
          0x00000000#32 h hφ hacc) hc)) hb) (ix2 r c)
      = logSoftmaxRow (fun j => u (ix2 r j)) c := by
  refine (subf_apply _ _ _).trans ?_
  rw [broadcastTo_a1_ab_apply]
  show (u (ix2 r c) - broadcastTo ⟨2, ![M, N]⟩ _ hb (ix2 r c)) - Ideal.log (shapeCast ⟨2, ![M, 1]⟩ _ hc (ix2 r (0 : Fin 1))) = _
  rw [kernel_rowMax_apply u h hφ haccm hc hb, shapeCast_a_a1_apply, laneSum_apply _ h hφ hacc (lift_cols h)]
  unfold logSoftmaxRow
  refine congrArg (fun s => (u (ix2 r c) - rowMax fun j => u (ix2 r j)) - Ideal.log s) ?_
  refine Finset.sum_congr rfl fun k _ => ?_
  show Ideal.exp (u (ix2 r k) - broadcastTo ⟨2, ![M, N]⟩ _ hb (ix2 r k)) = _
  rw [kernel_rowMax_apply u h hφ haccm hc hb]

/-! ## The array spelling (the whole array in the reference) -/

/-- The two `dot_general`s, summed, at `(r, c)`. -/
theorem host_pre_apply (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A B : FVec Ideal ⟨2, ![M, K]⟩ .f32) (W W' : FVec Ideal ⟨2, ![K, N]⟩ .f32) (r : Fin M) (c : Fin N) :
    addf (Host.dotGeneral D none A W) (Host.dotGeneral D none B W') (ix2 r c)
      = pre (fun k => A (ix2 r k)) (fun k => B (ix2 r k)) (fun k j => W (ix2 k j)) (fun k j => W' (ix2 k j)) c := by
  refine (addf_apply _ _ _).trans ?_
  rw [dotGeneral_plain_apply D hl hr hrank hsize hl0 hr1, dotGeneral_plain_apply D hl hr hrank hsize hl0 hr1]
  rfl

/-- A `reduce` with `add` from the zero word along the columns, laid out as a column, at `(r, 0)`: the row's plain sum. -/
theorem host_rowSum_col_apply (x : FVec Ideal ⟨2, ![M, N]⟩ .f32)
    (h' : (⟨2, ![M, N]⟩ : Shape).ReducesTo [(1 : Fin 2)] ⟨1, ![M]⟩) (hu : 0 < (⟨0, ![]⟩ : Shape).numel)
    (h : (⟨2, ![M, N]⟩ : Shape).Reduces [(1 : Fin 2)] ⟨1, ![M]⟩)
    (hb1 : (⟨1, ![M]⟩ : Shape).BroadcastsInDim ⟨2, ![M, 1]⟩ ![0]) (r : Fin M) :
    broadcastInDim ⟨2, ![M, 1]⟩ ![0] hb1 (Host.reduceAdd x (constant (F := Ideal) ⟨0, ![]⟩ .f32 0x00000000#32) h' hu) (ix2 r (0 : Fin 1))
      = ∑ j, x (ix2 r j) := by
  rw [broadcastInDim_a_a1_apply, hostRowSum_apply _ _ h' hu h (lift_cols h)]
  refine (congrArg (· + ∑ j, x (ix2 r j)) Ideal.ofBits_zero_f32).trans ?_
  exact zero_add _

/-- The norm as the reference takes it — `reduce` of the squares from the zero word, laid out as a column, root, plus the
    broadcast ε — broadcast over the columns and divided into the array, at `(r, c)`. -/
theorem host_unit_apply (o : FVec Ideal ⟨2, ![M, N]⟩ .f32)
    (h' : (⟨2, ![M, N]⟩ : Shape).ReducesTo [(1 : Fin 2)] ⟨1, ![M]⟩) (hu : 0 < (⟨0, ![]⟩ : Shape).numel)
    (h : (⟨2, ![M, N]⟩ : Shape).Reduces [(1 : Fin 2)] ⟨1, ![M]⟩)
    (hb1 : (⟨1, ![M]⟩ : Shape).BroadcastsInDim ⟨2, ![M, 1]⟩ ![0])
    (hb0 : (⟨0, ![]⟩ : Shape).BroadcastsInDim ⟨2, ![M, 1]⟩ ![])
    (hb2 : (⟨2, ![M, 1]⟩ : Shape).BroadcastsInDim ⟨2, ![M, N]⟩ ![0, 1]) (r : Fin M) (c : Fin N) :
    Host.divf o (broadcastInDim ⟨2, ![M, N]⟩ ![0, 1] hb2 (addf
        (Host.sqrt (broadcastInDim ⟨2, ![M, 1]⟩ ![0] hb1 (Host.reduceAdd (mulf o o) (constant (F := Ideal) ⟨0, ![]⟩ .f32 0x00000000#32) h' hu)))
        (broadcastInDim ⟨2, ![M, 1]⟩ ![] hb0 (constant (F := Ideal) ⟨0, ![]⟩ .f32 0x322BCC77#32)))) (ix2 r c)
      = unitRow (fun j => o (ix2 r j)) c := by
  refine (hostDivf_apply _ _ _).trans ?_
  rw [broadcastInDim_a1_ab_apply]
  refine congrArg (Ideal.div (o (ix2 r c))) ?_
  refine (addf_apply _ _ _).trans ?_
  rw [broadcastInDim_scalar_apply]
  refine congrArg (· + eps) ?_
  exact congrArg Ideal.sqrt (host_rowSum_col_apply (mulf o o) h' hu h hb1 r)

/-- The row maximum as the reference takes it — `reduce` with a maximum body from −∞, then once more the maximum with a
    broadcast −∞ — laid out as a column and broadcast over the columns, at `(r, c)`. -/
theorem host_rowMax_apply (u : FVec Ideal ⟨2, ![M, N]⟩ .f32)
    (h' : (⟨2, ![M, N]⟩ : Shape).ReducesTo [(1 : Fin 2)] ⟨1, ![M]⟩) (hu : 0 < (⟨0, ![]⟩ : Shape).numel)
    (h : (⟨2, ![M, N]⟩ : Shape).Reduces [(1 : Fin 2)] ⟨1, ![M]⟩)
    (hbM : (⟨0, ![]⟩ : Shape).BroadcastsInDim ⟨1, ![M]⟩ ![])
    (hb1 : (⟨1, ![M]⟩ : Shape).BroadcastsInDim ⟨2, ![M, 1]⟩ ![0])
    (hb2 : (⟨2, ![M, 1]⟩ : Shape).BroadcastsInDim ⟨2, ![M, N]⟩ ![0, 1]) (r : Fin M) (c : Fin N) :
    broadcastInDim ⟨2, ![M, N]⟩ ![0, 1] hb2 (broadcastInDim ⟨2, ![M, 1]⟩ ![0] hb1
        (maximumf (broadcastInDim ⟨1, ![M]⟩ ![] hbM (constant (F := Ideal) ⟨0, ![]⟩ .f32 0xFF800000#32))
          (Host.reduce FloatOps.maximumf u (constant (F := Ideal) ⟨0, ![]⟩ .f32 0xFF800000#32) h' hu))) (ix2 r c)
      = rowMax (fun j => u (ix2 r j)) := by
  rw [broadcastInDim_a1_ab_apply, broadcastInDim_a_a1_apply]
  refine (maximumf_apply _ _ _).trans ?_
  rw [broadcastInDim_scalar_apply, Host.reduce_eq_fold_single FloatOps.maximumf u _ h' h hu]
  have e : (u ∘ h.lift (ix1 r)) = fun j => u (ix2 r j) := funext fun k => congrArg u (lift_cols h r k)
  rw [e]
  exact max_eq_right ((Finset.le_fold_max _).mpr (Or.inl le_rfl))

/-- The reference's log-softmax given the array `mx` of row maxima laid over the columns, at `(r, c)`. -/
theorem host_logSoftmax_of_max (u mx : FVec Ideal ⟨2, ![M, N]⟩ .f32)
    (hmx : ∀ (r : Fin M) (c : Fin N), mx (ix2 r c) = rowMax (fun j => u (ix2 r j)))
    (h' : (⟨2, ![M, N]⟩ : Shape).ReducesTo [(1 : Fin 2)] ⟨1, ![M]⟩) (hu : 0 < (⟨0, ![]⟩ : Shape).numel)
    (h : (⟨2, ![M, N]⟩ : Shape).Reduces [(1 : Fin 2)] ⟨1, ![M]⟩)
    (hb1 : (⟨1, ![M]⟩ : Shape).BroadcastsInDim ⟨2, ![M, 1]⟩ ![0])
    (hb2 : (⟨2, ![M, 1]⟩ : Shape).BroadcastsInDim ⟨2, ![M, N]⟩ ![0, 1]) (r : Fin M) (c : Fin N) :
    subf (subf u mx) (broadcastInDim ⟨2, ![M, N]⟩ ![0, 1] hb2 (Host.log (broadcastInDim ⟨2, ![M, 1]⟩ ![0] hb1
        (Host.reduceAdd (Host.exp (subf u mx)) (constant (F := Ideal) ⟨0, ![]⟩ .f32 0x00000000#32) h' hu)))) (ix2 r c)
      = logSoftmaxRow (fun j => u (ix2 r j)) c := by
  refine (subf_apply _ _ _).trans ?_
  rw [broadcastInDim_a1_ab_apply]
  have e : broadcastInDim ⟨2, ![M, 1]⟩ ![0] hb1 (Host.reduceAdd (Host.exp (subf u mx)) (constant (F := Ideal) ⟨0, ![]⟩ .f32 0x00000000#32) h' hu) (ix2 r (0 : Fin 1))
      = ∑ j, Ideal.exp (u (ix2 r j) - rowMax (fun j => u (ix2 r j))) := by
    rw [host_rowSum_col_apply _ h' hu h hb1 r]
    refine Finset.sum_congr rfl fun k _ => ?_
    exact congrArg (fun z => Ideal.exp (u (ix2 r k) - z)) (hmx r k)
  refine (congrArg (fun z => (subf u mx) (ix2 r c) - Ideal.log z) e).trans ?_
  exact congrArg (fun z => (u (ix2 r c) - z) - Ideal.log (∑ j, Ideal.exp (u (ix2 r j) - rowMax (fun j => u (ix2 r j))))) (hmx r c)

/-! ## The two layers whole, in both spellings -/

/-- The first layer on whole arrays: entry `i` is `layer1Row` of row `i 0` of the operands, at column `i 1`. -/
def layer1 (A B : (⟨2, ![M, K]⟩ : Shape).Idx → EReal) (W W' : (⟨2, ![K, N]⟩ : Shape).Idx → EReal) :
    (⟨2, ![M, N]⟩ : Shape).Idx → EReal := fun i =>
  layer1Row (fun k => A (ix2 (i 0) k)) (fun k => B (ix2 (i 0) k)) (fun k j => W (ix2 k j)) (fun k j => W' (ix2 k j)) (i 1)

/-- The second layer on whole arrays. -/
def layer2 (A B : (⟨2, ![M, K]⟩ : Shape).Idx → EReal) (W W' : (⟨2, ![K, N]⟩ : Shape).Idx → EReal) :
    (⟨2, ![M, N]⟩ : Shape).Idx → EReal := fun i =>
  layer2Row (fun k => A (ix2 (i 0) k)) (fun k => B (ix2 (i 0) k)) (fun k j => W (ix2 k j)) (fun k j => W' (ix2 k j)) (i 1)

/-- A block of rows through the first layer's vector operations, at `(r, c)`. -/
theorem kernel_layer1_apply (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (x0 x1 : FVec Ideal ⟨2, ![M, K]⟩ .f32) (w0 w1 : FVec Ideal ⟨2, ![K, N]⟩ .f32)
    (hc : (⟨2, ![M, K]⟩ : Shape).ShapeCasts ⟨2, ![M, K]⟩) (hb : (FTy.bf16).bits < (FTy.f32).bits)
    (h : (⟨2, ![M, N]⟩ : Shape).Reduces [(1 : Fin 2)] ⟨1, ![M]⟩) (hφ : FKind.Formats .f32)
    (hacc : (0x00000000#32 : BitVec 32) = FKind.add.neutral .f32 hφ)
    (hc1 : (⟨1, ![M]⟩ : Shape).ShapeCasts ⟨2, ![M, 1]⟩) (hbb : (⟨2, ![M, 1]⟩ : Shape).Broadcasts ⟨2, ![M, N]⟩) (r : Fin M) (c : Fin N) :
    maximumf
      (divf
        (addf (matmul D none (truncf .bf16 (shapeCast ⟨2, ![M, K]⟩ x0 hc) hb) (truncf .bf16 w0 hb) (constant (F := Ideal) ⟨2, ![M, N]⟩ .f32 0x00000000#32))
          (matmul D none (truncf .bf16 (shapeCast ⟨2, ![M, K]⟩ x1 hc) hb) (truncf .bf16 w1 hb) (constant (F := Ideal) ⟨2, ![M, N]⟩ .f32 0x00000000#32)))
        (broadcastTo ⟨2, ![M, N]⟩ (addf (sqrt (shapeCast ⟨2, ![M, 1]⟩ (multiReduction .add [(1 : Fin 2)] ⟨1, ![M]⟩
          (mulf
            (addf (matmul D none (truncf .bf16 (shapeCast ⟨2, ![M, K]⟩ x0 hc) hb) (truncf .bf16 w0 hb) (constant (F := Ideal) ⟨2, ![M, N]⟩ .f32 0x00000000#32))
              (matmul D none (truncf .bf16 (shapeCast ⟨2, ![M, K]⟩ x1 hc) hb) (truncf .bf16 w1 hb) (constant (F := Ideal) ⟨2, ![M, N]⟩ .f32 0x00000000#32)))
            (addf (matmul D none (truncf .bf16 (shapeCast ⟨2, ![M, K]⟩ x0 hc) hb) (truncf .bf16 w0 hb) (constant (F := Ideal) ⟨2, ![M, N]⟩ .f32 0x00000000#32))
              (matmul D none (truncf .bf16 (shapeCast ⟨2, ![M, K]⟩ x1 hc) hb) (truncf .bf16 w1 hb) (constant (F := Ideal) ⟨2, ![M, N]⟩ .f32 0x00000000#32))))
          0x00000000#32 h hφ hacc) hc1))
          (broadcast ⟨2, ![M, 1]⟩ (Scalar.ofBits (F := Ideal) .f32 0x322BCC77#32))) hbb))
      (broadcast ⟨2, ![M, N]⟩ (Scalar.ofBits (F := Ideal) .f32 0x00000000#32)) (ix2 r c)
      = layer1Row (fun k => x0 (ix2 r k)) (fun k => x1 (ix2 r k)) (fun k j => w0 (ix2 k j)) (fun k j => w1 (ix2 k j)) c := by
  refine (maximumf_apply _ _ _).trans ?_
  refine congrArg (max · (Ideal.ofBits .f32 0x00000000#32)) ?_
  refine (kernel_unit_apply _ h hφ hacc hc1 hbb r c).trans ?_
  exact congrArg (unitRow · c) (funext fun j => kernel_pre_apply D hl hr hrank hsize hl0 hr1 x0 x1 w0 w1 hc hb r j)

/-- The whole array through the first layer's array operations: the function `layer1`. -/
theorem host_layer1 (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A B : FVec Ideal ⟨2, ![M, K]⟩ .f32) (W W' : FVec Ideal ⟨2, ![K, N]⟩ .f32)
    (h' : (⟨2, ![M, N]⟩ : Shape).ReducesTo [(1 : Fin 2)] ⟨1, ![M]⟩) (hu : 0 < (⟨0, ![]⟩ : Shape).numel)
    (h : (⟨2, ![M, N]⟩ : Shape).Reduces [(1 : Fin 2)] ⟨1, ![M]⟩)
    (hb1 : (⟨1, ![M]⟩ : Shape).BroadcastsInDim ⟨2, ![M, 1]⟩ ![0])
    (hb0 : (⟨0, ![]⟩ : Shape).BroadcastsInDim ⟨2, ![M, 1]⟩ ![])
    (hb2 : (⟨2, ![M, 1]⟩ : Shape).BroadcastsInDim ⟨2, ![M, N]⟩ ![0, 1])
    (hbz : (⟨0, ![]⟩ : Shape).BroadcastsInDim ⟨2, ![M, N]⟩ ![]) :
    maximumf
      (Host.divf (addf (Host.dotGeneral D none A W) (Host.dotGeneral D none B W'))
        (broadcastInDim ⟨2, ![M, N]⟩ ![0, 1] hb2 (addf
          (Host.sqrt (broadcastInDim ⟨2, ![M, 1]⟩ ![0] hb1 (Host.reduceAdd
            (mulf (addf (Host.dotGeneral D none A W) (Host.dotGeneral D none B W')) (addf (Host.dotGeneral D none A W) (Host.dotGeneral D none B W')))
            (constant (F := Ideal) ⟨0, ![]⟩ .f32 0x00000000#32) h' hu)))
          (broadcastInDim ⟨2, ![M, 1]⟩ ![] hb0 (constant (F := Ideal) ⟨0, ![]⟩ .f32 0x322BCC77#32)))))
      (broadcastInDim ⟨2, ![M, N]⟩ ![] hbz (constant (F := Ideal) ⟨0, ![]⟩ .f32 0x00000000#32))
      = layer1 A B W W' := by
  funext i
  obtain ⟨r, c, rfl⟩ : ∃ (r : Fin M) (c : Fin N), i = ix2 r c := ⟨i 0, i 1, eq_ix2 i⟩
  refine (maximumf_apply _ _ _).trans ?_
  rw [broadcastInDim_scalar_apply]
  refine congrArg (max · (Ideal.ofBits .f32 0x00000000#32)) ?_
  refine (host_unit_apply _ h' hu h hb1 hb0 hb2 r c).trans ?_
  exact congrArg (unitRow · c) (funext fun j => host_pre_apply D hl hr hrank hsize hl0 hr1 A B W W' r j)

/-- A block of rows through the second layer's vector operations, at `(r, c)`, given the block `u` after scaling. -/
theorem kernel_layer2_of_unit (u : FVec Ideal ⟨2, ![M, N]⟩ .f32) (v : Fin M → Fin N → EReal)
    (hu : ∀ (r : Fin M) (c : Fin N), u (ix2 r c) = v r c)
    (h : (⟨2, ![M, N]⟩ : Shape).Reduces [(1 : Fin 2)] ⟨1, ![M]⟩) (hφ : FKind.Formats .f32)
    (hacc : (0x00000000#32 : BitVec 32) = FKind.add.neutral .f32 hφ)
    (haccm : (0xFF800000#32 : BitVec 32) = FKind.maximumf.neutral .f32 hφ)
    (hc1 : (⟨1, ![M]⟩ : Shape).ShapeCasts ⟨2, ![M, 1]⟩) (hbb : (⟨2, ![M, 1]⟩ : Shape).Broadcasts ⟨2, ![M, N]⟩) (r : Fin M) (c : Fin N) :
    subf (subf u (broadcastTo ⟨2, ![M, N]⟩ (shapeCast ⟨2, ![M, 1]⟩ (multiReduction .maximumf [(1 : Fin 2)] ⟨1, ![M]⟩ u 0xFF800000#32 h hφ haccm) hc1) hbb))
        (broadcastTo ⟨2, ![M, N]⟩ (log (shapeCast ⟨2, ![M, 1]⟩ (multiReduction .add [(1 : Fin 2)] ⟨1, ![M]⟩
          (exp (subf u (broadcastTo ⟨2, ![M, N]⟩ (shapeCast ⟨2, ![M, 1]⟩ (multiReduction .maximumf [(1 : Fin 2)] ⟨1, ![M]⟩ u 0xFF800000#32 h hφ haccm) hc1) hbb)))
          0x00000000#32 h hφ hacc) hc1)) hbb) (ix2 r c)
      = logSoftmaxRow (v r) c :=
  (kernel_logSoftmax_apply u h hφ hacc haccm hc1 hbb r c).trans
    (congrArg (logSoftmaxRow · c) (funext fun j => hu r j))

/-- The whole array through the reference's log-softmax, given the array `u` after scaling. -/
theorem host_layer2_of_unit (u : FVec Ideal ⟨2, ![M, N]⟩ .f32) (v : Fin M → Fin N → EReal)
    (hv : ∀ (r : Fin M) (c : Fin N), u (ix2 r c) = v r c)
    (h' : (⟨2, ![M, N]⟩ : Shape).ReducesTo [(1 : Fin 2)] ⟨1, ![M]⟩) (hu : 0 < (⟨0, ![]⟩ : Shape).numel)
    (h : (⟨2, ![M, N]⟩ : Shape).Reduces [(1 : Fin 2)] ⟨1, ![M]⟩)
    (hbM : (⟨0, ![]⟩ : Shape).BroadcastsInDim ⟨1, ![M]⟩ ![])
    (hb1 : (⟨1, ![M]⟩ : Shape).BroadcastsInDim ⟨2, ![M, 1]⟩ ![0])
    (hb2 : (⟨2, ![M, 1]⟩ : Shape).BroadcastsInDim ⟨2, ![M, N]⟩ ![0, 1]) (r : Fin M) (c : Fin N) :
    subf (subf u (broadcastInDim ⟨2, ![M, N]⟩ ![0, 1] hb2 (broadcastInDim ⟨2, ![M, 1]⟩ ![0] hb1
          (maximumf (broadcastInDim ⟨1, ![M]⟩ ![] hbM (constant (F := Ideal) ⟨0, ![]⟩ .f32 0xFF800000#32))
            (Host.reduce FloatOps.maximumf u (constant (F := Ideal) ⟨0, ![]⟩ .f32 0xFF800000#32) h' hu)))))
        (broadcastInDim ⟨2, ![M, N]⟩ ![0, 1] hb2 (Host.log (broadcastInDim ⟨2, ![M, 1]⟩ ![0] hb1
          (Host.reduceAdd (Host.exp (subf u (broadcastInDim ⟨2, ![M, N]⟩ ![0, 1] hb2 (broadcastInDim ⟨2, ![M, 1]⟩ ![0] hb1
            (maximumf (broadcastInDim ⟨1, ![M]⟩ ![] hbM (constant (F := Ideal) ⟨0, ![]⟩ .f32 0xFF800000#32))
              (Host.reduce FloatOps.maximumf u (constant (F := Ideal) ⟨0, ![]⟩ .f32 0xFF800000#32) h' hu))))))
            (constant (F := Ideal) ⟨0, ![]⟩ .f32 0x00000000#32) h' hu)))) (ix2 r c)
      = logSoftmaxRow (v r) c :=
  (host_logSoftmax_of_max u _ (host_rowMax_apply u h' hu h hbM hb1 hb2) h' hu h hb1 hb2 r c).trans
    (congrArg (logSoftmaxRow · c) (funext fun j => hv r j))

/-! ## The second layer in two steps -/

/-- The array scaled row by row onto the unit sphere, as a function of the layer's four operands. -/
def unitArr (A B : (⟨2, ![M, K]⟩ : Shape).Idx → EReal) (W W' : (⟨2, ![K, N]⟩ : Shape).Idx → EReal) :
    (⟨2, ![M, N]⟩ : Shape).Idx → EReal := fun i =>
  unitRow (pre (fun k => A (ix2 (i 0) k)) (fun k => B (ix2 (i 0) k)) (fun k j => W (ix2 k j)) (fun k j => W' (ix2 k j))) (i 1)

/-- The log-softmax of every row of an array. -/
def logSoftmaxArr (u : (⟨2, ![M, N]⟩ : Shape).Idx → EReal) : (⟨2, ![M, N]⟩ : Shape).Idx → EReal := fun i =>
  logSoftmaxRow (fun j => u (ix2 (i 0) j)) (i 1)

/-- The second layer is the log-softmax of the scaled array. -/
theorem layer2_eq (A B : (⟨2, ![M, K]⟩ : Shape).Idx → EReal) (W W' : (⟨2, ![K, N]⟩ : Shape).Idx → EReal) :
    layer2 A B W W' = logSoftmaxArr (unitArr A B W W') := rfl

/-- The reference's scaled array: the function `unitArr`. -/
theorem host_unitArr (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A B : FVec Ideal ⟨2, ![M, K]⟩ .f32) (W W' : FVec Ideal ⟨2, ![K, N]⟩ .f32)
    (h' : (⟨2, ![M, N]⟩ : Shape).ReducesTo [(1 : Fin 2)] ⟨1, ![M]⟩) (hu : 0 < (⟨0, ![]⟩ : Shape).numel)
    (h : (⟨2, ![M, N]⟩ : Shape).Reduces [(1 : Fin 2)] ⟨1, ![M]⟩)
    (hb1 : (⟨1, ![M]⟩ : Shape).BroadcastsInDim ⟨2, ![M, 1]⟩ ![0])
    (hb0 : (⟨0, ![]⟩ : Shape).BroadcastsInDim ⟨2, ![M, 1]⟩ ![])
    (hb2 : (⟨2, ![M, 1]⟩ : Shape).BroadcastsInDim ⟨2, ![M, N]⟩ ![0, 1]) :
    Host.divf (addf (Host.dotGeneral D none A W) (Host.dotGeneral D none B W'))
        (broadcastInDim ⟨2, ![M, N]⟩ ![0, 1] hb2 (addf
          (Host.sqrt (broadcastInDim ⟨2, ![M, 1]⟩ ![0] hb1 (Host.reduceAdd
            (mulf (addf (Host.dotGeneral D none A W) (Host.dotGeneral D none B W')) (addf (Host.dotGeneral D none A W) (Host.dotGeneral D none B W')))
            (constant (F := Ideal) ⟨0, ![]⟩ .f32 0x00000000#32) h' hu)))
          (broadcastInDim ⟨2, ![M, 1]⟩ ![] hb0 (constant (F := Ideal) ⟨0, ![]⟩ .f32 0x322BCC77#32))))
      = unitArr A B W W' := by
  funext i
  obtain ⟨r, c, rfl⟩ : ∃ (r : Fin M) (c : Fin N), i = ix2 r c := ⟨i 0, i 1, eq_ix2 i⟩
  refine (host_unit_apply _ h' hu h hb1 hb0 hb2 r c).trans ?_
  exact congrArg (unitRow · c) (funext fun j => host_pre_apply D hl hr hrank hsize hl0 hr1 A B W W' r j)

/-- The reference's log-softmax of an array: the function `logSoftmaxArr`. -/
theorem host_logSoftmaxArr (u : FVec Ideal ⟨2, ![M, N]⟩ .f32)
    (h' : (⟨2, ![M, N]⟩ : Shape).ReducesTo [(1 : Fin 2)] ⟨1, ![M]⟩) (hu : 0 < (⟨0, ![]⟩ : Shape).numel)
    (h : (⟨2, ![M, N]⟩ : Shape).Reduces [(1 : Fin 2)] ⟨1, ![M]⟩)
    (hbM : (⟨0, ![]⟩ : Shape).BroadcastsInDim ⟨1, ![M]⟩ ![])
    (hb1 : (⟨1, ![M]⟩ : Shape).BroadcastsInDim ⟨2, ![M, 1]⟩ ![0])
    (hb2 : (⟨2, ![M, 1]⟩ : Shape).BroadcastsInDim ⟨2, ![M, N]⟩ ![0, 1]) :
    subf (subf u (broadcastInDim ⟨2, ![M, N]⟩ ![0, 1] hb2 (broadcastInDim ⟨2, ![M, 1]⟩ ![0] hb1
          (maximumf (broadcastInDim ⟨1, ![M]⟩ ![] hbM (constant (F := Ideal) ⟨0, ![]⟩ .f32 0xFF800000#32))
            (Host.reduce FloatOps.maximumf u (constant (F := Ideal) ⟨0, ![]⟩ .f32 0xFF800000#32) h' hu)))))
        (broadcastInDim ⟨2, ![M, N]⟩ ![0, 1] hb2 (Host.log (broadcastInDim ⟨2, ![M, 1]⟩ ![0] hb1
          (Host.reduceAdd (Host.exp (subf u (broadcastInDim ⟨2, ![M, N]⟩ ![0, 1] hb2 (broadcastInDim ⟨2, ![M, 1]⟩ ![0] hb1
            (maximumf (broadcastInDim ⟨1, ![M]⟩ ![] hbM (constant (F := Ideal) ⟨0, ![]⟩ .f32 0xFF800000#32))
              (Host.reduce FloatOps.maximumf u (constant (F := Ideal) ⟨0, ![]⟩ .f32 0xFF800000#32) h' hu))))))
            (constant (F := Ideal) ⟨0, ![]⟩ .f32 0x00000000#32) h' hu))))
      = logSoftmaxArr u := by
  funext i
  obtain ⟨r, c, rfl⟩ : ∃ (r : Fin M) (c : Fin N), i = ix2 r c := ⟨i 0, i 1, eq_ix2 i⟩
  exact host_layer2_of_unit u (fun r c => u (ix2 r c)) (fun _ _ => rfl) h' hu h hbM hb1 hb2 r c

end Cert.SageRows

end
-- ==== Proof.Payload.lean ====
/-
  What each kernel body stores, read at an entry. The first body's stored block, at `(p, q)`, is the first layer's row
  function of row `p` of the two loaded row blocks and of the two loaded weight matrices; the second body's likewise for the
  second layer. The conversions to bf16 before the matrix products and the same-shape casts are identities on the extended reals.
-/
import proofs.«138851_j12524124635376_1_alg».proof.Proof.Gen.KernelIdeal.Skeleton
import proofs.«138851_j12524124635376_1_alg».proof.Proof.SageRows

set_option maxRecDepth 16384

noncomputable section

namespace Cert.KernelIdeal.Payload

open Cert.KernelIdeal Cert.KernelIdeal.Gen Idealize.ShloMosaic Idealize.ShloMosaic.ValueIdx Cert.SageRows

/-! ## The two contractions' index maps -/

theorem dot0_lhs0 (j : S2000x128.Idx) (k : dot_S2000x65_S65x128_S2000x128_1_0_0_1_n_n.contr.Idx) :
    (dot_S2000x65_S65x128_S2000x128_1_0_0_1_n_n.lhsIdx j k (0 : Fin 2)).val = (j (0 : Fin 2)).val := by
  unfold DotDims.lhsIdx
  rw [dif_neg (show ¬(0 : Fin S2000x65.rank) ∈ dot_S2000x65_S65x128_S2000x128_1_0_0_1_n_n.lhsBatch by decide),
    dif_pos (show (0 : Fin S2000x65.rank) ∈ dot_S2000x65_S65x128_S2000x128_1_0_0_1_n_n.lhsNonContracting by decide)]
  rfl

theorem dot0_rhs1 (j : S2000x128.Idx) (k : dot_S2000x65_S65x128_S2000x128_1_0_0_1_n_n.contr.Idx) :
    (dot_S2000x65_S65x128_S2000x128_1_0_0_1_n_n.rhsIdx j k (1 : Fin 2)).val = (j (1 : Fin 2)).val := by
  unfold DotDims.rhsIdx
  rw [dif_neg (show ¬(1 : Fin S65x128.rank) ∈ dot_S2000x65_S65x128_S2000x128_1_0_0_1_n_n.rhsBatch by decide),
    dif_pos (show (1 : Fin S65x128.rank) ∈ dot_S2000x65_S65x128_S2000x128_1_0_0_1_n_n.rhsNonContracting by decide)]
  rfl

theorem dot1_lhs0 (j : S2000x10.Idx) (k : dot_S2000x129_S129x10_S2000x10_1_0_0_1_n_n.contr.Idx) :
    (dot_S2000x129_S129x10_S2000x10_1_0_0_1_n_n.lhsIdx j k (0 : Fin 2)).val = (j (0 : Fin 2)).val := by
  unfold DotDims.lhsIdx
  rw [dif_neg (show ¬(0 : Fin S2000x129.rank) ∈ dot_S2000x129_S129x10_S2000x10_1_0_0_1_n_n.lhsBatch by decide),
    dif_pos (show (0 : Fin S2000x129.rank) ∈ dot_S2000x129_S129x10_S2000x10_1_0_0_1_n_n.lhsNonContracting by decide)]
  rfl

theorem dot1_rhs1 (j : S2000x10.Idx) (k : dot_S2000x129_S129x10_S2000x10_1_0_0_1_n_n.contr.Idx) :
    (dot_S2000x129_S129x10_S2000x10_1_0_0_1_n_n.rhsIdx j k (1 : Fin 2)).val = (j (1 : Fin 2)).val := by
  unfold DotDims.rhsIdx
  rw [dif_neg (show ¬(1 : Fin S129x10.rank) ∈ dot_S2000x129_S129x10_S2000x10_1_0_0_1_n_n.rhsBatch by decide),
    dif_pos (show (1 : Fin S129x10.rank) ∈ dot_S2000x129_S129x10_S2000x10_1_0_0_1_n_n.rhsNonContracting by decide)]
  rfl

/-! ## The stored values -/

/-- The first body's stored block at `(p, q)`. -/
theorem pay0_apply (x0 x1 : Vec Ideal S2000x65 .f32) (x2 x3 : Vec Ideal S65x128 .f32) (p : Fin 2000) (q : Fin 128) :
    k0_pay1 (F := Ideal) x0 x1 x2 x3 (ix2 p q)
      = layer1Row (fun k => x0 (ix2 p k)) (fun k => x1 (ix2 p k)) (fun k j => x2 (ix2 k j)) (fun k j => x3 (ix2 k j)) q := by
  unfold k0_pay1
  exact kernel_layer1_apply dot_S2000x65_S65x128_S2000x128_1_0_0_1_n_n rfl rfl rfl rfl dot0_lhs0 dot0_rhs1 x0 x1 x2 x3
    shapeCasts_S2000x65_S2000x65 bitsLt_bf16_f32 reduces_S2000x128_S2000 (.inl rfl) rfl shapeCasts_S2000_S2000x1
    broadcasts_S2000x1_S2000x128 p q

/-- The second body's block after scaling, at `(p, c)`: row `p` on the unit sphere. -/
theorem unit1_apply (x0 x1 : Vec Ideal S2000x129 .f32) (x2 x3 : Vec Ideal S129x10 .f32) (p : Fin 2000) (c : Fin 10) :
    divf
      (addf (matmul dot_S2000x129_S129x10_S2000x10_1_0_0_1_n_n none (truncf .bf16 (shapeCast S2000x129 x0 shapeCasts_S2000x129_S2000x129) bitsLt_bf16_f32) (truncf .bf16 x2 bitsLt_bf16_f32) (constant (F := Ideal) S2000x10 .f32 0x00000000#32))
        (matmul dot_S2000x129_S129x10_S2000x10_1_0_0_1_n_n none (truncf .bf16 (shapeCast S2000x129 x1 shapeCasts_S2000x129_S2000x129) bitsLt_bf16_f32) (truncf .bf16 x3 bitsLt_bf16_f32) (constant (F := Ideal) S2000x10 .f32 0x00000000#32)))
      (broadcastTo S2000x10 (addf (sqrt (shapeCast S2000x1 (multiReduction .add [1] S2000
        (mulf
          (addf (matmul dot_S2000x129_S129x10_S2000x10_1_0_0_1_n_n none (truncf .bf16 (shapeCast S2000x129 x0 shapeCasts_S2000x129_S2000x129) bitsLt_bf16_f32) (truncf .bf16 x2 bitsLt_bf16_f32) (constant (F := Ideal) S2000x10 .f32 0x00000000#32))
            (matmul dot_S2000x129_S129x10_S2000x10_1_0_0_1_n_n none (truncf .bf16 (shapeCast S2000x129 x1 shapeCasts_S2000x129_S2000x129) bitsLt_bf16_f32) (truncf .bf16 x3 bitsLt_bf16_f32) (constant (F := Ideal) S2000x10 .f32 0x00000000#32)))
          (addf (matmul dot_S2000x129_S129x10_S2000x10_1_0_0_1_n_n none (truncf .bf16 (shapeCast S2000x129 x0 shapeCasts_S2000x129_S2000x129) bitsLt_bf16_f32) (truncf .bf16 x2 bitsLt_bf16_f32) (constant (F := Ideal) S2000x10 .f32 0x00000000#32))
            (matmul dot_S2000x129_S129x10_S2000x10_1_0_0_1_n_n none (truncf .bf16 (shapeCast S2000x129 x1 shapeCasts_S2000x129_S2000x129) bitsLt_bf16_f32) (truncf .bf16 x3 bitsLt_bf16_f32) (constant (F := Ideal) S2000x10 .f32 0x00000000#32))))
        0x00000000#32 reduces_S2000x10_S2000 (.inl rfl) rfl) shapeCasts_S2000_S2000x1))
        (broadcast S2000x1 (Scalar.ofBits (F := Ideal) .f32 0x322BCC77#32))) broadcasts_S2000x1_S2000x10) (ix2 p c)
      = unitRow (pre (fun k => x0 (ix2 p k)) (fun k => x1 (ix2 p k)) (fun k j => x2 (ix2 k j)) (fun k j => x3 (ix2 k j))) c :=
  (kernel_unit_apply _ reduces_S2000x10_S2000 (.inl rfl) rfl shapeCasts_S2000_S2000x1 broadcasts_S2000x1_S2000x10 p c).trans
    (congrArg (unitRow · c) (funext fun j => kernel_pre_apply dot_S2000x129_S129x10_S2000x10_1_0_0_1_n_n rfl rfl rfl rfl dot1_lhs0 dot1_rhs1
      x0 x1 x2 x3 shapeCasts_S2000x129_S2000x129 bitsLt_bf16_f32 p j))

/-- The second body's stored block at `(p, q)`. -/
theorem pay1_apply (x0 x1 : Vec Ideal S2000x129 .f32) (x2 x3 : Vec Ideal S129x10 .f32) (p : Fin 2000) (q : Fin 10) :
    k1_pay1 (F := Ideal) x0 x1 x2 x3 (ix2 p q)
      = layer2Row (fun k => x0 (ix2 p k)) (fun k => x1 (ix2 p k)) (fun k j => x2 (ix2 k j)) (fun k j => x3 (ix2 k j)) q := by
  unfold k1_pay1
  exact kernel_layer2_of_unit _ _ (unit1_apply x0 x1 x2 x3) reduces_S2000x10_S2000 (.inl rfl) rfl rfl shapeCasts_S2000_S2000x1
    broadcasts_S2000x1_S2000x10 p q

end Cert.KernelIdeal.Payload

end
-- ==== Proof.Region.lean ====
/-
  From blocks to arrays. Each dense layer runs on a grid of 25 points; point `t` loads rows 2000·t … 2000·t + 1999 of its
  two row operands and both weight matrices whole, and writes back the same rows of the result. Since a row of a layer's
  result depends only on the same row of the operands, what point `t` writes back is block `t` of ONE function of the whole
  arrays (`SageRows.layer1` / `layer2`), and the 25 blocks cover the result: after the region the result array IS that
  function of the arrays as the region found them, whatever those contents are.
-/
import proofs.«138851_j12524124635376_1_alg».proof.Proof.Gen.KernelIdeal.Frame
import proofs.«138851_j12524124635376_1_alg».proof.Proof.Payload
import Idealize.ShloMosaic.Lib.Pipeline.Value

set_option maxRecDepth 16384

noncomputable section

namespace Cert.KernelIdeal.Region

open Cert.KernelIdeal Cert.KernelIdeal.Gen Idealize.ShloMosaic Idealize.ShloMosaic.TcCoe Idealize.SL.Sem
open Idealize.ShloMosaic.ValueIdx Cert.SageRows Cert.KernelIdeal.Payload
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The first dense layer's grid -/

/-- The printed index maps over the 25 points: the two row operands and the result move one block of 2000 rows per point,
    the two weight matrices stay. -/
theorem idx_facts0 : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The layer on the whole arrays as the region finds them. -/
def G0 (c : Dev nD) : S50000x128.Idx → EReal :=
  layer1 (M := 50000) (K := 65) (N := 128) (V c main_v5 : S50000x65.Idx → EReal) (V c main_v24 : S50000x65.Idx → EReal)
    (V c main_arg2 : S65x128.Idx → EReal) (V c main_arg3 : S65x128.Idx → EReal)

/-- One entry of one point's stored block: given that row `p` of the two loaded row blocks is row `r` of the arrays and
    the loaded weights are the weight arrays, the stored value at `(p, q)` is the layer at `(r, q)`. -/
theorem point0 (A B : S50000x65.Idx → EReal) (W W' : S65x128.Idx → EReal)
    (x0 x1 : Vec Ideal S2000x65 .f32) (x2 x3 : Vec Ideal S65x128 .f32) (r : Fin 50000) (p : Fin 2000) (q : Fin 128)
    (h0 : ∀ k : Fin 65, x0 (ix2 p k) = A (ix2 r k)) (h1 : ∀ k : Fin 65, x1 (ix2 p k) = B (ix2 r k))
    (h2 : ∀ (k : Fin 65) (j : Fin 128), x2 (ix2 k j) = W (ix2 k j)) (h3 : ∀ (k : Fin 65) (j : Fin 128), x3 (ix2 k j) = W' (ix2 k j)) :
    k0_pay1 (F := Ideal) x0 x1 x2 x3 (ix2 p q) = layer1 (M := 50000) (K := 65) (N := 128) A B W W' (ix2 r q) := by
  rw [pay0_apply]
  have e0 : (fun k => x0 (ix2 p k)) = fun k => A (ix2 r k) := funext h0
  have e1 : (fun k => x1 (ix2 p k)) = fun k => B (ix2 r k) := funext h1
  have e2 : (fun k j => x2 (ix2 k j)) = fun k j => W (ix2 k j) := funext fun k => funext fun j => h2 k j
  have e3 : (fun k j => x3 (ix2 k j)) = fun k j => W' (ix2 k j) := funext fun k => funext fun j => h3 k j
  rw [e0, e1, e2, e3]
  rfl

/-- What point `t` writes back is block `t` of the layer on the whole arrays. -/
theorem flushed0_eq (c : Dev nD) (t : Fin cfg0.N) :
    (dat0 V c).flushed 4 t = ((cfg0.win 4).blk t).view.read (Elt Ideal) (G0 V c) := by
  show (cfg0.win 4).cut (grid0.coords t) ((dat0 V c).after 4 t) = _
  rw [after0_4]
  unfold out0_4
  rw [View.canon_unit_zero hz]
  simp only [View.ld_unit_zero (S := S2000x65) hz, View.ld_unit_zero (S := S65x128) hz]
  obtain ⟨e00, e01, e10, e11, e20, e21, e30, e31, e40, e41⟩ := idx_facts0 t
  have ht : t.val < 25 := t.isLt
  funext j
  obtain ⟨p, q, rfl⟩ : ∃ (p : Fin 2000) (q : Fin 128), j = ix2 p q := ⟨j 0, j 1, eq_ix2 j⟩
  have hp : p.val < 2000 := p.isLt
  have hq : q.val < 128 := q.isLt
  have hr : t.val * 2000 + p.val < 50000 := by omega
  have hemb : ((cfg0.win 4).blk t).view.emb (ix2 p q) = ix2 (⟨t.val * 2000 + p.val, hr⟩ : Fin 50000) q := by
    funext a; apply Fin.ext
    match a with
    | ⟨0, _⟩ => show win0_4.index t (0 : Fin 2) * 2000 + 1 * p.val = t.val * 2000 + p.val; omega
    | ⟨1, _⟩ => show win0_4.index t (1 : Fin 2) * 128 + 1 * q.val = q.val; omega
  show k0_pay1 (iblk0 V c 0 t) (iblk0 V c 1 t) (iblk0 V c 2 t) (iblk0 V c 3 t) (ix2 p q)
      = G0 V c (((cfg0.win 4).blk t).view.emb (ix2 p q))
  rw [hemb]
  refine point0 _ _ _ _ _ _ _ _ ⟨t.val * 2000 + p.val, hr⟩ p q ?_ ?_ ?_ ?_
  · intro k
    have hk : k.val < 65 := k.isLt
    show V c main_v5 (((cfg0.win 0).blk t).view.emb (ix2 p k)) = _
    refine congrArg _ (funext fun a => Fin.ext ?_)
    match a with
    | ⟨0, _⟩ => show win0_0.index t (0 : Fin 2) * 2000 + 1 * p.val = t.val * 2000 + p.val; omega
    | ⟨1, _⟩ => show win0_0.index t (1 : Fin 2) * 65 + 1 * k.val = k.val; omega
  · intro k
    have hk : k.val < 65 := k.isLt
    show V c main_v24 (((cfg0.win 1).blk t).view.emb (ix2 p k)) = _
    refine congrArg _ (funext fun a => Fin.ext ?_)
    match a with
    | ⟨0, _⟩ => show win0_1.index t (0 : Fin 2) * 2000 + 1 * p.val = t.val * 2000 + p.val; omega
    | ⟨1, _⟩ => show win0_1.index t (1 : Fin 2) * 65 + 1 * k.val = k.val; omega
  · intro k j
    have hk : k.val < 65 := k.isLt
    have hj : j.val < 128 := j.isLt
    show V c main_arg2 (((cfg0.win 2).blk t).view.emb (ix2 k j)) = _
    refine congrArg _ (funext fun a => Fin.ext ?_)
    match a with
    | ⟨0, _⟩ => show win0_2.index t (0 : Fin 2) * 65 + 1 * k.val = k.val; omega
    | ⟨1, _⟩ => show win0_2.index t (1 : Fin 2) * 128 + 1 * j.val = j.val; omega
  · intro k j
    have hk : k.val < 65 := k.isLt
    have hj : j.val < 128 := j.isLt
    show V c main_arg3 (((cfg0.win 3).blk t).view.emb (ix2 k j)) = _
    refine congrArg _ (funext fun a => Fin.ext ?_)
    match a with
    | ⟨0, _⟩ => show win0_3.index t (0 : Fin 2) * 65 + 1 * k.val = k.val; omega
    | ⟨1, _⟩ => show win0_3.index t (1 : Fin 2) * 128 + 1 * j.val = j.val; omega

/-- An index of the result array is in point `t`'s block iff each coordinate is in the block's range on its axis. -/
theorem mem_blk0 (t : Fin cfg0.N) (i : S50000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v25).slice (win0_4.rect t)).set ↔ _
  rw [View.set_slice_whole, Rect.mem_set_unit]
  exact Iff.rfl

/-- Every row of the result is in the block of the point `row / 2000`. -/
theorem cover0 (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  refine ⟨⟨(i 0).val / 2000, by show (i 0).val / 2000 < 25; omega⟩, flush0_4 _, ?_⟩
  rw [mem_blk0]
  obtain ⟨e00, e01, e10, e11, e20, e21, e30, e31, e40, e41⟩ := idx_facts0 ⟨(i 0).val / 2000, by show (i 0).val / 2000 < 25; omega⟩
  have e40' : win0_4.index ⟨(i 0).val / 2000, by show (i 0).val / 2000 < 25; omega⟩ (0 : Fin 2) = (i 0).val / 2000 := e40
  intro a
  match a with
  | ⟨0, _⟩ =>
    show win0_4.index _ (0 : Fin 2) * 2000 ≤ (i 0).val ∧ (i 0).val < win0_4.index _ (0 : Fin 2) * 2000 + 2000
    rw [e40']; omega
  | ⟨1, _⟩ =>
    show win0_4.index _ (1 : Fin 2) * 128 ≤ (i 1).val ∧ (i 1).val < win0_4.index _ (1 : Fin 2) * 128 + 128
    rw [e41]; omega

/-- The result array after the region: the layer on the whole arrays as the region finds them. -/
theorem final0 (c : Dev nD) : (dat0 V c).arrAt 4 cfg0.N = G0 V c :=
  (dat0 V c).arrAt_eq_of_cover 4 (G0 V c) (fun t _ => flushed0_eq V c t) (cover0)

/-! ## The second dense layer's grid -/

/-- The printed index maps over the 25 points: the two row operands and the result move one block of 2000 rows per point,
    the two weight matrices stay. -/
theorem idx_facts1 : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The layer on the whole arrays as the region finds them. -/
def G1 (c : Dev nD) : S50000x10.Idx → EReal :=
  layer2 (M := 50000) (K := 129) (N := 10) (V c main_v27 : S50000x129.Idx → EReal) (V c main_v46 : S50000x129.Idx → EReal)
    (V c main_arg4 : S129x10.Idx → EReal) (V c main_arg5 : S129x10.Idx → EReal)

/-- One entry of one point's stored block: given that row `p` of the two loaded row blocks is row `r` of the arrays and
    the loaded weights are the weight arrays, the stored value at `(p, q)` is the layer at `(r, q)`. -/
theorem point1 (A B : S50000x129.Idx → EReal) (W W' : S129x10.Idx → EReal)
    (x0 x1 : Vec Ideal S2000x129 .f32) (x2 x3 : Vec Ideal S129x10 .f32) (r : Fin 50000) (p : Fin 2000) (q : Fin 10)
    (h0 : ∀ k : Fin 129, x0 (ix2 p k) = A (ix2 r k)) (h1 : ∀ k : Fin 129, x1 (ix2 p k) = B (ix2 r k))
    (h2 : ∀ (k : Fin 129) (j : Fin 10), x2 (ix2 k j) = W (ix2 k j)) (h3 : ∀ (k : Fin 129) (j : Fin 10), x3 (ix2 k j) = W' (ix2 k j)) :
    k1_pay1 (F := Ideal) x0 x1 x2 x3 (ix2 p q) = layer2 (M := 50000) (K := 129) (N := 10) A B W W' (ix2 r q) := by
  rw [pay1_apply]
  have e0 : (fun k => x0 (ix2 p k)) = fun k => A (ix2 r k) := funext h0
  have e1 : (fun k => x1 (ix2 p k)) = fun k => B (ix2 r k) := funext h1
  have e2 : (fun k j => x2 (ix2 k j)) = fun k j => W (ix2 k j) := funext fun k => funext fun j => h2 k j
  have e3 : (fun k j => x3 (ix2 k j)) = fun k j => W' (ix2 k j) := funext fun k => funext fun j => h3 k j
  rw [e0, e1, e2, e3]
  rfl

/-- What point `t` writes back is block `t` of the layer on the whole arrays. -/
theorem flushed1_eq (c : Dev nD) (t : Fin cfg1.N) :
    (dat1 V c).flushed 4 t = ((cfg1.win 4).blk t).view.read (Elt Ideal) (G1 V c) := by
  show (cfg1.win 4).cut (grid1.coords t) ((dat1 V c).after 4 t) = _
  rw [after1_4]
  unfold out1_4
  rw [View.canon_unit_zero hz]
  simp only [View.ld_unit_zero (S := S2000x129) hz, View.ld_unit_zero (S := S129x10) hz]
  obtain ⟨e00, e01, e10, e11, e20, e21, e30, e31, e40, e41⟩ := idx_facts1 t
  have ht : t.val < 25 := t.isLt
  funext j
  obtain ⟨p, q, rfl⟩ : ∃ (p : Fin 2000) (q : Fin 10), j = ix2 p q := ⟨j 0, j 1, eq_ix2 j⟩
  have hp : p.val < 2000 := p.isLt
  have hq : q.val < 10 := q.isLt
  have hr : t.val * 2000 + p.val < 50000 := by omega
  have hemb : ((cfg1.win 4).blk t).view.emb (ix2 p q) = ix2 (⟨t.val * 2000 + p.val, hr⟩ : Fin 50000) q := by
    funext a; apply Fin.ext
    match a with
    | ⟨0, _⟩ => show win1_4.index t (0 : Fin 2) * 2000 + 1 * p.val = t.val * 2000 + p.val; omega
    | ⟨1, _⟩ => show win1_4.index t (1 : Fin 2) * 10 + 1 * q.val = q.val; omega
  show k1_pay1 (iblk1 V c 0 t) (iblk1 V c 1 t) (iblk1 V c 2 t) (iblk1 V c 3 t) (ix2 p q)
      = G1 V c (((cfg1.win 4).blk t).view.emb (ix2 p q))
  rw [hemb]
  refine point1 _ _ _ _ _ _ _ _ ⟨t.val * 2000 + p.val, hr⟩ p q ?_ ?_ ?_ ?_
  · intro k
    have hk : k.val < 129 := k.isLt
    show V c main_v27 (((cfg1.win 0).blk t).view.emb (ix2 p k)) = _
    refine congrArg _ (funext fun a => Fin.ext ?_)
    match a with
    | ⟨0, _⟩ => show win1_0.index t (0 : Fin 2) * 2000 + 1 * p.val = t.val * 2000 + p.val; omega
    | ⟨1, _⟩ => show win1_0.index t (1 : Fin 2) * 129 + 1 * k.val = k.val; omega
  · intro k
    have hk : k.val < 129 := k.isLt
    show V c main_v46 (((cfg1.win 1).blk t).view.emb (ix2 p k)) = _
    refine congrArg _ (funext fun a => Fin.ext ?_)
    match a with
    | ⟨0, _⟩ => show win1_1.index t (0 : Fin 2) * 2000 + 1 * p.val = t.val * 2000 + p.val; omega
    | ⟨1, _⟩ => show win1_1.index t (1 : Fin 2) * 129 + 1 * k.val = k.val; omega
  · intro k j
    have hk : k.val < 129 := k.isLt
    have hj : j.val < 10 := j.isLt
    show V c main_arg4 (((cfg1.win 2).blk t).view.emb (ix2 k j)) = _
    refine congrArg _ (funext fun a => Fin.ext ?_)
    match a with
    | ⟨0, _⟩ => show win1_2.index t (0 : Fin 2) * 129 + 1 * k.val = k.val; omega
    | ⟨1, _⟩ => show win1_2.index t (1 : Fin 2) * 10 + 1 * j.val = j.val; omega
  · intro k j
    have hk : k.val < 129 := k.isLt
    have hj : j.val < 10 := j.isLt
    show V c main_arg5 (((cfg1.win 3).blk t).view.emb (ix2 k j)) = _
    refine congrArg _ (funext fun a => Fin.ext ?_)
    match a with
    | ⟨0, _⟩ => show win1_3.index t (0 : Fin 2) * 129 + 1 * k.val = k.val; omega
    | ⟨1, _⟩ => show win1_3.index t (1 : Fin 2) * 10 + 1 * j.val = j.val; omega

/-- An index of the result array is in point `t`'s block iff each coordinate is in the block's range on its axis. -/
theorem mem_blk1 (t : Fin cfg1.N) (i : S50000x10.Idx) :
    i ∈ ((cfg1.win 4).blk t).view.set ↔ ∀ a : Fin 2, win1_4.index t a * S2000x10.size a ≤ (i a).val ∧ (i a).val < win1_4.index t a * S2000x10.size a + S2000x10.size a := by
  show i ∈ ((View.whole main_v47).slice (win1_4.rect t)).set ↔ _
  rw [View.set_slice_whole, Rect.mem_set_unit]
  exact Iff.rfl

/-- Every row of the result is in the block of the point `row / 2000`. -/
theorem cover1 (i : S50000x10.Idx) :
    ∃ t : Fin cfg1.N, (cfg1.win 4).flush t = true ∧ i ∈ ((cfg1.win 4).blk t).view.set := by
  have hi0 : (i 0).val < 50000 := (i 0).isLt
  have hi1 : (i 1).val < 10 := (i 1).isLt
  refine ⟨⟨(i 0).val / 2000, by show (i 0).val / 2000 < 25; omega⟩, flush1_4 _, ?_⟩
  rw [mem_blk1]
  obtain ⟨e00, e01, e10, e11, e20, e21, e30, e31, e40, e41⟩ := idx_facts1 ⟨(i 0).val / 2000, by show (i 0).val / 2000 < 25; omega⟩
  have e40' : win1_4.index ⟨(i 0).val / 2000, by show (i 0).val / 2000 < 25; omega⟩ (0 : Fin 2) = (i 0).val / 2000 := e40
  intro a
  match a with
  | ⟨0, _⟩ =>
    show win1_4.index _ (0 : Fin 2) * 2000 ≤ (i 0).val ∧ (i 0).val < win1_4.index _ (0 : Fin 2) * 2000 + 2000
    rw [e40']; omega
  | ⟨1, _⟩ =>
    show win1_4.index _ (1 : Fin 2) * 10 ≤ (i 1).val ∧ (i 1).val < win1_4.index _ (1 : Fin 2) * 10 + 10
    rw [e41]; omega

/-- The result array after the region: the layer on the whole arrays as the region finds them. -/
theorem final1 (c : Dev nD) : (dat1 V c).arrAt 4 cfg1.N = G1 V c :=
  (dat1 V c).arrAt_eq_of_cover 4 (G1 V c) (fun t _ => flushed1_eq V c t) (cover1)

end Cert.KernelIdeal.Region

end
-- ==== Proof.KernelStages.lean ====
/-
  The idealized kernel's boundaries read at the buffers the next segment needs. After the first dense layer's region its
  result array holds the first layer of what the first host stretch left in the region's four operand buffers, and every
  buffer the region does not window is as the host stretch left it; after the second region the result array holds the
  second layer of what the second host stretch left.
-/
import proofs.«138851_j12524124635376_1_alg».proof.Proof.Region

set_option maxRecDepth 16384

noncomputable section

namespace Cert.KernelIdeal.Stages

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- After the first region: its result array is the first layer of the contents the first host stretch left. -/
theorem W2_v25 (c : Dev nD) : (W2 m ρ c (Proc.devRef .tc main_v25) : S50000x128.Idx → EReal)
    = Cert.SageRows.layer1 (M := 50000) (K := 65) (N := 128) (W1 m ρ c (Proc.devRef .tc main_v5)) (W1 m ρ c (Proc.devRef .tc main_v24))
        (W1 m ρ c (Proc.devRef .tc main_arg2)) (W1 m ρ c (Proc.devRef .tc main_arg3)) :=
  (W2_arr m ρ c 4).trans (Region.final0 (V1 m ρ) c)

theorem W2_v1 (c : Dev nD) : W2 m ρ c (Proc.devRef .tc main_v1) = W1 m ρ c (Proc.devRef .tc main_v1) :=
  W2_of_ne m ρ c main_v1 (by decide)
theorem W2_v3 (c : Dev nD) : W2 m ρ c (Proc.devRef .tc main_v3) = W1 m ρ c (Proc.devRef .tc main_v3) :=
  W2_of_ne m ρ c main_v3 (by decide)
theorem W2_arg4 (c : Dev nD) : W2 m ρ c (Proc.devRef .tc main_arg4) = W1 m ρ c (Proc.devRef .tc main_arg4) :=
  W2_of_ne m ρ c main_arg4 (by decide)
theorem W2_arg5 (c : Dev nD) : W2 m ρ c (Proc.devRef .tc main_arg5) = W1 m ρ c (Proc.devRef .tc main_arg5) :=
  W2_of_ne m ρ c main_arg5 (by decide)

/-- After the second region: the result array is the second layer of the contents the second host stretch left. -/
theorem W4_v47 (c : Dev nD) : (W4 m ρ c (Proc.devRef .tc main_v47) : S50000x10.Idx → EReal)
    = Cert.SageRows.layer2 (M := 50000) (K := 129) (N := 10) (W3 m ρ c (Proc.devRef .tc main_v27)) (W3 m ρ c (Proc.devRef .tc main_v46))
        (W3 m ρ c (Proc.devRef .tc main_arg4)) (W3 m ρ c (Proc.devRef .tc main_arg5)) :=
  (W4_arr m ρ c 4).trans (Region.final1 (V3 m ρ) c)

end Cert.KernelIdeal.Stages

end
-- ==== Proof.RefStages.lean ====
/-
  The reference's operations read a stretch at a time. Its 104 operations are four stretches: 32 that build the first
  layer's operands (the rows with a ones column, the neighbours' mean), 16 that are the first dense layer, 28 that build the
  second layer's operands from the first layer's result, 28 that are the second dense layer and the log-softmax. The fold
  of all operations over the launch contents is the stretches' folds one after the other (the last stretch cut once more,
  before the log-softmax), and each dense stretch, from ANY
  contents, leaves its result at the layer function of the contents of its four operand buffers.
-/
import proofs.«138851_j12524124635376_1_alg».proof.Proof.RefRunP
import proofs.«138851_j12524124635376_1_alg».proof.Proof.SageRows

set_option maxRecDepth 16384

noncomputable section

namespace Cert.ReferenceIdeal.Stages

open Cert.ReferenceIdeal Cert.ReferenceIdeal.Gen Cert.ReferenceIdeal.ValueP
open Idealize.ShloMosaic Idealize.ShloMosaic.TcCoe Idealize.SL.Sem Idealize.ShloMosaic.StableHlo Idealize.ShloMosaic.ValueIdx

/-- The fold over a concatenation is the fold over the second list from the fold over the first. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih _

/-- Contents carried to a buffer's own type and back are the contents. -/
theorem ofBuf_toBuf {sig : RefSig} {T : BufTy} {Val : EltTy → Type} (x : TRef sig T) (v : T.Contents Val) :
    x.ofBuf (x.toBuf v) = v := by
  obtain ⟨r, h, h2, h3⟩ := x
  subst h
  rfl

variable {F : FTy → Type} [FloatOps F]

/-- The operations that build the first layer's operands. -/
abbrev P1 : List (HloOp τ sig (Elt F)) := (ops (F := F)).take 32
/-- The first dense layer. -/
abbrev L1 : List (HloOp τ sig (Elt F)) := ((ops (F := F)).drop 32).take 16
/-- The operations that build the second layer's operands. -/
abbrev P2 : List (HloOp τ sig (Elt F)) := ((ops (F := F)).drop 48).take 28
/-- The second dense layer up to the array scaled onto the unit sphere. -/
abbrev L2a : List (HloOp τ sig (Elt F)) := ((ops (F := F)).drop 76).take 13
/-- The log-softmax. -/
abbrev L2b : List (HloOp τ sig (Elt F)) := (ops (F := F)).drop 89

theorem ops_split : (ops (F := F)) = P1 ++ (L1 ++ (P2 ++ (L2a ++ L2b))) := by
  have e1 : (ops (F := F)) = (ops (F := F)).take 32 ++ (ops (F := F)).drop 32 := (List.take_append_drop 32 _).symm
  have e2 : (ops (F := F)).drop 32 = ((ops (F := F)).drop 32).take 16 ++ ((ops (F := F)).drop 32).drop 16 := (List.take_append_drop 16 _).symm
  have e3 : ((ops (F := F)).drop 32).drop 16 = (ops (F := F)).drop 48 := List.drop_drop
  have e4 : (ops (F := F)).drop 48 = ((ops (F := F)).drop 48).take 28 ++ ((ops (F := F)).drop 48).drop 28 := (List.take_append_drop 28 _).symm
  have e5 : ((ops (F := F)).drop 48).drop 28 = (ops (F := F)).drop 76 := List.drop_drop
  have e6 : (ops (F := F)).drop 76 = ((ops (F := F)).drop 76).take 13 ++ ((ops (F := F)).drop 76).drop 13 := (List.take_append_drop 13 _).symm
  have e7 : ((ops (F := F)).drop 76).drop 13 = (ops (F := F)).drop 89 := List.drop_drop
  calc (ops (F := F)) = (ops (F := F)).take 32 ++ (ops (F := F)).drop 32 := e1
    _ = P1 ++ (L1 ++ ((ops (F := F)).drop 48)) := by rw [e2, e3]
    _ = P1 ++ (L1 ++ (P2 ++ (ops (F := F)).drop 76)) := by rw [e4, e5]
    _ = P1 ++ (L1 ++ (P2 ++ (L2a ++ L2b))) := by rw [e6, e7]

/-- The fold of all 104 operations, as the five stretches' folds. -/
theorem after_ops (V : Valuation τ sig (Elt F)) :
    after (ops (F := F)) V = after L2b (after L2a (after P2 (after L1 (after P1 V)))) := by
  conv_lhs => rw [ops_split]
  rw [after_append, after_append, after_append, after_append]

/-! ## The dense stretches from any contents -/

theorem dotA_lhs0 (j : S50000x128.Idx) (k : dot_S50000x65_S65x128_S50000x128_1_0_0_1_n_n.contr.Idx) :
    (dot_S50000x65_S65x128_S50000x128_1_0_0_1_n_n.lhsIdx j k (0 : Fin 2)).val = (j (0 : Fin 2)).val := by
  unfold DotDims.lhsIdx
  rw [dif_neg (show ¬(0 : Fin S50000x65.rank) ∈ dot_S50000x65_S65x128_S50000x128_1_0_0_1_n_n.lhsBatch by decide),
    dif_pos (show (0 : Fin S50000x65.rank) ∈ dot_S50000x65_S65x128_S50000x128_1_0_0_1_n_n.lhsNonContracting by decide)]
  rfl

theorem dotA_rhs1 (j : S50000x128.Idx) (k : dot_S50000x65_S65x128_S50000x128_1_0_0_1_n_n.contr.Idx) :
    (dot_S50000x65_S65x128_S50000x128_1_0_0_1_n_n.rhsIdx j k (1 : Fin 2)).val = (j (1 : Fin 2)).val := by
  unfold DotDims.rhsIdx
  rw [dif_neg (show ¬(1 : Fin S65x128.rank) ∈ dot_S50000x65_S65x128_S50000x128_1_0_0_1_n_n.rhsBatch by decide),
    dif_pos (show (1 : Fin S65x128.rank) ∈ dot_S50000x65_S65x128_S50000x128_1_0_0_1_n_n.rhsNonContracting by decide)]
  rfl

theorem dotB_lhs0 (j : S50000x10.Idx) (k : dot_S50000x129_S129x10_S50000x10_1_0_0_1_n_n.contr.Idx) :
    (dot_S50000x129_S129x10_S50000x10_1_0_0_1_n_n.lhsIdx j k (0 : Fin 2)).val = (j (0 : Fin 2)).val := by
  unfold DotDims.lhsIdx
  rw [dif_neg (show ¬(0 : Fin S50000x129.rank) ∈ dot_S50000x129_S129x10_S50000x10_1_0_0_1_n_n.lhsBatch by decide),
    dif_pos (show (0 : Fin S50000x129.rank) ∈ dot_S50000x129_S129x10_S50000x10_1_0_0_1_n_n.lhsNonContracting by decide)]
  rfl

theorem dotB_rhs1 (j : S50000x10.Idx) (k : dot_S50000x129_S129x10_S50000x10_1_0_0_1_n_n.contr.Idx) :
    (dot_S50000x129_S129x10_S50000x10_1_0_0_1_n_n.rhsIdx j k (1 : Fin 2)).val = (j (1 : Fin 2)).val := by
  unfold DotDims.rhsIdx
  rw [dif_neg (show ¬(1 : Fin S129x10.rank) ∈ dot_S50000x129_S129x10_S50000x10_1_0_0_1_n_n.rhsBatch by decide),
    dif_pos (show (1 : Fin S129x10.rank) ∈ dot_S50000x129_S129x10_S50000x10_1_0_0_1_n_n.rhsNonContracting by decide)]
  rfl

variable (X : Valuation τ sig (Elt Ideal))

/-- The first dense stretch leaves `main_v33` at the first layer of its four operand buffers' contents. -/
theorem L1_result : (after (L1 (F := Ideal)) X (Proc.devRef .tc main_v33) : S50000x128.Idx → EReal)
    = Cert.SageRows.layer1 (M := 50000) (K := 65) (N := 128) (X (Proc.devRef .tc main_v5)) (X (Proc.devRef .tc main_v24))
        (X (Proc.devRef .tc main_arg2)) (X (Proc.devRef .tc main_arg3)) := by
  simp only [L1, ops, List.drop_succ_cons, List.drop_zero, List.take_succ_cons, List.take_zero]
  after_results_simp
  simp only [ofBuf_toBuf]
  exact Cert.SageRows.host_layer1 dot_S50000x65_S65x128_S50000x128_1_0_0_1_n_n rfl rfl rfl rfl dotA_lhs0 dotA_rhs1 _ _ _ _
    reducesTo_S50000x128_S50000_d1 h_S_ (by decide) bcast_S50000_S50000x1_0 bcast_S_S50000x1 bcast_S50000x1_S50000x128_0_1 bcast_S_S50000x128

/-- The second dense stretch, up to the scaling, leaves `main_v62` at the scaled array of its four operand buffers' contents. -/
theorem L2a_result : (after (L2a (F := Ideal)) X (Proc.devRef .tc main_v62) : S50000x10.Idx → EReal)
    = Cert.SageRows.unitArr (M := 50000) (K := 129) (N := 10) (X (Proc.devRef .tc main_v35)) (X (Proc.devRef .tc main_v54))
        (X (Proc.devRef .tc main_arg4)) (X (Proc.devRef .tc main_arg5)) := by
  simp only [L2a, ops, List.drop_succ_cons, List.drop_zero, List.take_succ_cons, List.take_zero]
  after_results_simp
  simp only [ofBuf_toBuf]
  exact Cert.SageRows.host_unitArr dot_S50000x129_S129x10_S50000x10_1_0_0_1_n_n rfl rfl rfl rfl dotB_lhs0 dotB_rhs1 _ _ _ _
    reducesTo_S50000x10_S50000_d1 h_S_ (by decide) bcast_S50000_S50000x1_0 bcast_S_S50000x1 bcast_S50000x1_S50000x10_0_1

/-- The log-softmax stretch leaves `main_v63` at the log-softmax of `main_v62`'s contents. -/
theorem L2b_result : (after (L2b (F := Ideal)) X (Proc.devRef .tc main_v63) : S50000x10.Idx → EReal)
    = Cert.SageRows.logSoftmaxArr (M := 50000) (N := 10) (X (Proc.devRef .tc main_v62)) := by
  simp only [L2b, ops, List.drop_succ_cons, List.drop_zero]
  after_results_simp
  simp only [ofBuf_toBuf]
  exact Cert.SageRows.host_logSoftmaxArr _ reducesTo_S50000x10_S50000_d1 h_S_ (by decide) bcast_S_S50000 bcast_S50000_S50000x1_0
    bcast_S50000x1_S50000x10_0_1

/-! ## What the first dense stretch leaves alone -/

theorem L1_v1 : after (L1 (F := Ideal)) X (Proc.devRef .tc main_v1) = X (Proc.devRef .tc main_v1) := by
  simp only [L1, ops, List.drop_succ_cons, List.drop_zero, List.take_succ_cons, List.take_zero]
  after_results_simp
theorem L1_v3 : after (L1 (F := Ideal)) X (Proc.devRef .tc main_v3) = X (Proc.devRef .tc main_v3) := by
  simp only [L1, ops, List.drop_succ_cons, List.drop_zero, List.take_succ_cons, List.take_zero]
  after_results_simp
theorem L1_arg4 : after (L1 (F := Ideal)) X (Proc.devRef .tc main_arg4) = X (Proc.devRef .tc main_arg4) := by
  simp only [L1, ops, List.drop_succ_cons, List.drop_zero, List.take_succ_cons, List.take_zero]
  after_results_simp
theorem L1_arg5 : after (L1 (F := Ideal)) X (Proc.devRef .tc main_arg5) = X (Proc.devRef .tc main_arg5) := by
  simp only [L1, ops, List.drop_succ_cons, List.drop_zero, List.take_succ_cons, List.take_zero]
  after_results_simp

/-! ## The arguments through all the operations -/

theorem ops_arg0 {F : FTy → Type} [FloatOps F] (X : Valuation τ sig (Elt F)) :
    after (ops (F := F)) X (Proc.devRef .tc main_arg0) = X (Proc.devRef .tc main_arg0) := by
  after_results_simp
theorem ops_arg1 {F : FTy → Type} [FloatOps F] (X : Valuation τ sig (Elt F)) :
    after (ops (F := F)) X (Proc.devRef .tc main_arg1) = X (Proc.devRef .tc main_arg1) := by
  after_results_simp
theorem ops_arg2 {F : FTy → Type} [FloatOps F] (X : Valuation τ sig (Elt F)) :
    after (ops (F := F)) X (Proc.devRef .tc main_arg2) = X (Proc.devRef .tc main_arg2) := by
  after_results_simp
theorem ops_arg3 {F : FTy → Type} [FloatOps F] (X : Valuation τ sig (Elt F)) :
    after (ops (F := F)) X (Proc.devRef .tc main_arg3) = X (Proc.devRef .tc main_arg3) := by
  after_results_simp
theorem ops_arg4 {F : FTy → Type} [FloatOps F] (X : Valuation τ sig (Elt F)) :
    after (ops (F := F)) X (Proc.devRef .tc main_arg4) = X (Proc.devRef .tc main_arg4) := by
  after_results_simp
theorem ops_arg5 {F : FTy → Type} [FloatOps F] (X : Valuation τ sig (Elt F)) :
    after (ops (F := F)) X (Proc.devRef .tc main_arg5) = X (Proc.devRef .tc main_arg5) := by
  after_results_simp

end Cert.ReferenceIdeal.Stages

end
-- ==== Proof.HostTerms.lean ====
/-
  The host operations around the dense layers, as functions. Both programs build a layer's operands the same way:
  `withOnes` appends a column of ones to the rows; `srcOf` / `dstOf` are the two rows of the edge list; `gatherIdx` wraps a
  negative source index around (as jnp indexing does) and lays the indices out as a column; `degCol` is the number of
  edges into each node, clamped below at one, as a column; `neighMean` gathers the rows at the edges' sources, adds them
  into the edges' targets, and divides each row by that degree. The two layers differ only in the width of the rows (65 and 129).
-/
import proofs.«138851_j12524124635376_1_alg».proof.Proof.Gen.KernelIdeal
import Idealize.ShloMosaic.PureOps.Ideal

noncomputable section

namespace Cert.HostTerms

open Cert.KernelIdeal Cert.KernelIdeal.Gen Idealize.ShloMosaic

/-- The edges' sources: row 0 of the edge list. -/
def srcOf (e : IVec S2x800000 32) : IVec S800000 32 :=
  shapeCast S800000 (extractStridedSlice S1x800000 ![0, 0] e slices_S2x800000_S1x800000_0_0) shapeCasts_S1x800000_S800000

/-- The edges' targets: row 1 of the edge list. -/
def dstOf (e : IVec S2x800000 32) : IVec S800000 32 :=
  shapeCast S800000 (extractStridedSlice S1x800000 ![1, 0] e slices_S2x800000_S1x800000_1_0) shapeCasts_S1x800000_S800000

/-- The gather's start indices: a negative source wrapped around by the number of nodes, as a column. -/
def gatherIdx (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The number of edges into each node, clamped below at one, as a column. -/
def degCol (d : IVec S800000 32) : FVec Ideal S50000x1 .f32 :=
  broadcastInDim S50000x1 ![0] bcast_S50000_S50000x1_0
    (maximumf
      (Host.scatterAdd scatter_S50000_S800000x1_S800000_n_0_0_1
        (broadcastInDim S50000 ![] bcast_S_S50000 (constant (F := Ideal) S_ .f32 0x00000000#32))
        (broadcastInDim S800000x1 ![0] bcast_S800000_S800000x1_0 d)
        (broadcastInDim S800000 ![] bcast_S_S800000 (constant (F := Ideal) S_ .f32 0x3F800000#32)))
      (broadcastInDim S50000 ![] bcast_S_S50000 (constant (F := Ideal) S_ .f32 0x3F800000#32)))

/-- The first layer's rows: the features with a column of ones. -/
def withOnes1 (x : FVec Ideal S50000x64 .f32) : FVec Ideal S50000x65 .f32 :=
  concatenate S50000x65 1 [⟨S50000x64, x⟩, ⟨S50000x1, broadcastInDim S50000x1 ![] bcast_S_S50000x1 (constant (F := Ideal) S_ .f32 0x3F800000#32)⟩]
    concatenates_S50000x64_S50000x1_S50000x65_d1

/-- The first layer's neighbour means. -/
def neighMean1 (h : FVec Ideal S50000x65 .f32) (s d : IVec S800000 32) : FVec Ideal S50000x65 .f32 :=
  Host.divf
    (Host.scatterAdd scatter_S50000x65_S800000x1_S800000x65_1_0_0_1
      (broadcastInDim S50000x65 ![] bcast_S_S50000x65 (constant (F := Ideal) S_ .f32 0x00000000#32))
      (broadcastInDim S800000x1 ![0] bcast_S800000_S800000x1_0 d)
      (Host.gather gather_S50000x65_S800000x1_S800000x65_1_0_n_n_0_1_165 h (gatherIdx s)))
    (broadcastInDim S50000x65 ![0, 1] bcast_S50000x1_S50000x65_0_1 (degCol d))

/-- The second layer's rows: the first layer's result with a column of ones. -/
def withOnes2 (x : FVec Ideal S50000x128 .f32) : FVec Ideal S50000x129 .f32 :=
  concatenate S50000x129 1 [⟨S50000x128, x⟩, ⟨S50000x1, broadcastInDim S50000x1 ![] bcast_S_S50000x1 (constant (F := Ideal) S_ .f32 0x3F800000#32)⟩]
    concatenates_S50000x128_S50000x1_S50000x129_d1

/-- The second layer's neighbour means. -/
def neighMean2 (h : FVec Ideal S50000x129 .f32) (s d : IVec S800000 32) : FVec Ideal S50000x129 .f32 :=
  Host.divf
    (Host.scatterAdd scatter_S50000x129_S800000x1_S800000x129_1_0_0_1
      (broadcastInDim S50000x129 ![] bcast_S_S50000x129 (constant (F := Ideal) S_ .f32 0x00000000#32))
      (broadcastInDim S800000x1 ![0] bcast_S800000_S800000x1_0 d)
      (Host.gather gather_S50000x129_S800000x1_S800000x129_1_0_n_n_0_1_1129 h (gatherIdx s)))
    (broadcastInDim S50000x129 ![0, 1] bcast_S50000x1_S50000x129_0_1 (degCol d))

end Cert.HostTerms

end
-- ==== Proof.HostK.lean ====
/-
  The kernel program's two stretches of host operations, from ANY contents, read at the buffers the dense layers and the
  next stretch take: each is the named function (Proof/HostTerms.lean) of the contents of the buffers the stretch reads.
-/
import proofs.«138851_j12524124635376_1_alg».proof.Proof.Gen.KernelIdeal.Launch
import proofs.«138851_j12524124635376_1_alg».proof.Proof.HostTerms

set_option maxRecDepth 16384

noncomputable section

namespace Cert.KernelIdeal.HostEval

open Cert.KernelIdeal Cert.KernelIdeal.Gen Idealize.ShloMosaic Idealize.ShloMosaic.TcCoe Idealize.ShloMosaic.StableHlo Cert.HostTerms

variable (V : Valuation τ sig (Elt Ideal))

/-! ## The first stretch -/

theorem first_v5 : (StableHlo.after hostOps0 V (Proc.devRef .tc main_v5) : S50000x65.Idx → EReal) = withOnes1 (V (Proc.devRef .tc main_arg0)) := by
  simp only [hostOps0]
  after_results
  all_goals rfl

theorem first_v1 : (StableHlo.after hostOps0 V (Proc.devRef .tc main_v1) : IVec S800000 32) = srcOf (V (Proc.devRef .tc main_arg1)) := by
  simp only [hostOps0]
  after_results
  all_goals rfl

theorem first_v3 : (StableHlo.after hostOps0 V (Proc.devRef .tc main_v3) : IVec S800000 32) = dstOf (V (Proc.devRef .tc main_arg1)) := by
  simp only [hostOps0]
  after_results
  all_goals rfl

set_option maxHeartbeats 1600000 in
theorem first_v24 : (StableHlo.after hostOps0 V (Proc.devRef .tc main_v24) : S50000x65.Idx → EReal) = neighMean1 (withOnes1 (V (Proc.devRef .tc main_arg0))) (srcOf (V (Proc.devRef .tc main_arg1))) (dstOf (V (Proc.devRef .tc main_arg1))) := by
  simp only [hostOps0]
  after_results
  all_goals rfl

theorem first_arg2 : (StableHlo.after hostOps0 V (Proc.devRef .tc main_arg2) : S65x128.Idx → EReal) = (V (Proc.devRef .tc main_arg2)) := by
  simp only [hostOps0]
  after_results
  all_goals rfl

theorem first_arg3 : (StableHlo.after hostOps0 V (Proc.devRef .tc main_arg3) : S65x128.Idx → EReal) = (V (Proc.devRef .tc main_arg3)) := by
  simp only [hostOps0]
  after_results
  all_goals rfl

theorem first_arg4 : (StableHlo.after hostOps0 V (Proc.devRef .tc main_arg4) : S129x10.Idx → EReal) = (V (Proc.devRef .tc main_arg4)) := by
  simp only [hostOps0]
  after_results
  all_goals rfl

theorem first_arg5 : (StableHlo.after hostOps0 V (Proc.devRef .tc main_arg5) : S129x10.Idx → EReal) = (V (Proc.devRef .tc main_arg5)) := by
  simp only [hostOps0]
  after_results
  all_goals rfl

/-! ## The second stretch -/

theorem second_rows : (StableHlo.after hostOps1 V (Proc.devRef .tc main_v27) : S50000x129.Idx → EReal) = withOnes2 (V (Proc.devRef .tc main_v25)) := by
  simp only [hostOps1]
  after_results
  all_goals rfl

set_option maxHeartbeats 1600000 in
theorem second_neigh : (StableHlo.after hostOps1 V (Proc.devRef .tc main_v46) : S50000x129.Idx → EReal) = neighMean2 (withOnes2 (V (Proc.devRef .tc main_v25))) (V (Proc.devRef .tc main_v1)) (V (Proc.devRef .tc main_v3)) := by
  simp only [hostOps1]
  after_results
  all_goals rfl

theorem second_arg4 : (StableHlo.after hostOps1 V (Proc.devRef .tc main_arg4) : S129x10.Idx → EReal) = (V (Proc.devRef .tc main_arg4)) := by
  simp only [hostOps1]
  after_results
  all_goals rfl

theorem second_arg5 : (StableHlo.after hostOps1 V (Proc.devRef .tc main_arg5) : S129x10.Idx → EReal) = (V (Proc.devRef .tc main_arg5)) := by
  simp only [hostOps1]
  after_results
  all_goals rfl

end Cert.KernelIdeal.HostEval

end
-- ==== Proof.HostR.lean ====
/-
  The reference's two stretches of host operations around its dense layers, from ANY contents, read at the buffers the
  dense layers and the next stretch take: each is the SAME named function (Proof/HostTerms.lean) as in the kernel program.
-/
import proofs.«138851_j12524124635376_1_alg».proof.Proof.RefStages
import proofs.«138851_j12524124635376_1_alg».proof.Proof.HostTerms

set_option maxRecDepth 16384

noncomputable section

namespace Cert.ReferenceIdeal.HostEval

open Cert.ReferenceIdeal Cert.ReferenceIdeal.Gen Cert.ReferenceIdeal.ValueP Cert.ReferenceIdeal.Stages
open Idealize.ShloMosaic Idealize.ShloMosaic.TcCoe Idealize.ShloMosaic.StableHlo Cert.HostTerms

variable (V : Valuation τ sig (Elt Ideal))

/-! ## The first stretch -/

theorem first_v5 : (StableHlo.after (P1 (F := Ideal)) V (Proc.devRef .tc main_v5) : S50000x65.Idx → EReal) = withOnes1 (V (Proc.devRef .tc main_arg0)) := by
  simp only [P1, ops, List.take_succ_cons, List.take_zero]
  after_results
  all_goals rfl

theorem first_v1 : (StableHlo.after (P1 (F := Ideal)) V (Proc.devRef .tc main_v1) : IVec S800000 32) = srcOf (V (Proc.devRef .tc main_arg1)) := by
  simp only [P1, ops, List.take_succ_cons, List.take_zero]
  after_results
  all_goals rfl

theorem first_v3 : (StableHlo.after (P1 (F := Ideal)) V (Proc.devRef .tc main_v3) : IVec S800000 32) = dstOf (V (Proc.devRef .tc main_arg1)) := by
  simp only [P1, ops, List.take_succ_cons, List.take_zero]
  after_results
  all_goals rfl

set_option maxHeartbeats 1600000 in
theorem first_v24 : (StableHlo.after (P1 (F := Ideal)) V (Proc.devRef .tc main_v24) : S50000x65.Idx → EReal) = neighMean1 (withOnes1 (V (Proc.devRef .tc main_arg0))) (srcOf (V (Proc.devRef .tc main_arg1))) (dstOf (V (Proc.devRef .tc main_arg1))) := by
  simp only [P1, ops, List.take_succ_cons, List.take_zero]
  after_results
  all_goals rfl

theorem first_arg2 : (StableHlo.after (P1 (F := Ideal)) V (Proc.devRef .tc main_arg2) : S65x128.Idx → EReal) = (V (Proc.devRef .tc main_arg2)) := by
  simp only [P1, ops, List.take_succ_cons, List.take_zero]
  after_results
  all_goals rfl

theorem first_arg3 : (StableHlo.after (P1 (F := Ideal)) V (Proc.devRef .tc main_arg3) : S65x128.Idx → EReal) = (V (Proc.devRef .tc main_arg3)) := by
  simp only [P1, ops, List.take_succ_cons, List.take_zero]
  after_results
  all_goals rfl

theorem first_arg4 : (StableHlo.after (P1 (F := Ideal)) V (Proc.devRef .tc main_arg4) : S129x10.Idx → EReal) = (V (Proc.devRef .tc main_arg4)) := by
  simp only [P1, ops, List.take_succ_cons, List.take_zero]
  after_results
  all_goals rfl

theorem first_arg5 : (StableHlo.after (P1 (F := Ideal)) V (Proc.devRef .tc main_arg5) : S129x10.Idx → EReal) = (V (Proc.devRef .tc main_arg5)) := by
  simp only [P1, ops, List.take_succ_cons, List.take_zero]
  after_results
  all_goals rfl

/-! ## The second stretch -/

theorem second_rows : (StableHlo.after (P2 (F := Ideal)) V (Proc.devRef .tc main_v35) : S50000x129.Idx → EReal) = withOnes2 (V (Proc.devRef .tc main_v33)) := by
  simp only [P2, ops, List.drop_succ_cons, List.drop_zero, List.take_succ_cons, List.take_zero]
  after_results
  all_goals rfl

set_option maxHeartbeats 1600000 in
theorem second_neigh : (StableHlo.after (P2 (F := Ideal)) V (Proc.devRef .tc main_v54) : S50000x129.Idx → EReal) = neighMean2 (withOnes2 (V (Proc.devRef .tc main_v33))) (V (Proc.devRef .tc main_v1)) (V (Proc.devRef .tc main_v3)) := by
  simp only [P2, ops, List.drop_succ_cons, List.drop_zero, List.take_succ_cons, List.take_zero]
  after_results
  all_goals rfl

theorem second_arg4 : (StableHlo.after (P2 (F := Ideal)) V (Proc.devRef .tc main_arg4) : S129x10.Idx → EReal) = (V (Proc.devRef .tc main_arg4)) := by
  simp only [P2, ops, List.drop_succ_cons, List.drop_zero, List.take_succ_cons, List.take_zero]
  after_results
  all_goals rfl

theorem second_arg5 : (StableHlo.after (P2 (F := Ideal)) V (Proc.devRef .tc main_arg5) : S129x10.Idx → EReal) = (V (Proc.devRef .tc main_arg5)) := by
  simp only [P2, ops, List.drop_succ_cons, List.drop_zero, List.take_succ_cons, List.take_zero]
  after_results
  all_goals rfl

end Cert.ReferenceIdeal.HostEval

end
-- ==== Proof.Bridge.lean ====
/-
  The two programs side by side. Outside the two dense layers both programs run the same host operations — the rows
  with a ones column, the gather along the edges' sources, the scatter-add into the edges' targets, the degree clamped at
  one, the quotient (Proof/HostTerms.lean names them; Proof/HostK.lean and Proof/HostR.lean read each program's stretches as
  those functions) — so from contents that agree on what a stretch reads, the two stretches leave equal contents in what the
  next segment reads; and each dense layer, as a grid of row blocks in the kernel and as whole-array operations in the
  reference, is the same function of its four operands. Chaining the segments gives the kernel's result array equal to
  the reference's, from launch memories that agree on the six arguments.
-/
import proofs.«138851_j12524124635376_1_alg».proof.Proof.KernelStages
import proofs.«138851_j12524124635376_1_alg».proof.Proof.RefStages
import proofs.«138851_j12524124635376_1_alg».proof.Proof.HostK
import proofs.«138851_j12524124635376_1_alg».proof.Proof.HostR

set_option maxRecDepth 16384

noncomputable section

namespace Cert.Bridge

open Idealize.ShloMosaic Idealize.ShloMosaic.TcCoe Idealize.SL.Sem

/-! ## The first host stretch -/

/-- The rows with a ones column. -/
theorem P1_v5 (W : Valuation Cert.KernelIdeal.τ Cert.KernelIdeal.sig (Elt Ideal)) (X : Valuation Cert.ReferenceIdeal.τ Cert.ReferenceIdeal.sig (Elt Ideal))
    (h0 : (W (Proc.devRef .tc Cert.KernelIdeal.main_arg0) : Cert.KernelIdeal.S50000x64.Idx → EReal) = X (Proc.devRef .tc Cert.ReferenceIdeal.main_arg0)) :
    (StableHlo.after Cert.KernelIdeal.Gen.hostOps0 W (Proc.devRef .tc Cert.KernelIdeal.main_v5) : Cert.KernelIdeal.S50000x65.Idx → EReal)
      = StableHlo.after (Cert.ReferenceIdeal.Stages.P1 (F := Ideal)) X (Proc.devRef .tc Cert.ReferenceIdeal.main_v5) := by
  rw [Cert.KernelIdeal.HostEval.first_v5 W, Cert.ReferenceIdeal.HostEval.first_v5 X, h0]

/-- The neighbours' mean of those rows. -/
theorem P1_v24 (W : Valuation Cert.KernelIdeal.τ Cert.KernelIdeal.sig (Elt Ideal)) (X : Valuation Cert.ReferenceIdeal.τ Cert.ReferenceIdeal.sig (Elt Ideal))
    (h0 : (W (Proc.devRef .tc Cert.KernelIdeal.main_arg0) : Cert.KernelIdeal.S50000x64.Idx → EReal) = X (Proc.devRef .tc Cert.ReferenceIdeal.main_arg0))
    (h1 : (W (Proc.devRef .tc Cert.KernelIdeal.main_arg1) : (⟨Cert.KernelIdeal.S2x800000, .i32⟩ : BufTy).Contents (Elt Ideal)) = X (Proc.devRef .tc Cert.ReferenceIdeal.main_arg1)) :
    (StableHlo.after Cert.KernelIdeal.Gen.hostOps0 W (Proc.devRef .tc Cert.KernelIdeal.main_v24) : Cert.KernelIdeal.S50000x65.Idx → EReal)
      = StableHlo.after (Cert.ReferenceIdeal.Stages.P1 (F := Ideal)) X (Proc.devRef .tc Cert.ReferenceIdeal.main_v24) := by
  rw [Cert.KernelIdeal.HostEval.first_v24 W, Cert.ReferenceIdeal.HostEval.first_v24 X, h0, h1]

/-- The edges' sources. -/
theorem P1_v1 (W : Valuation Cert.KernelIdeal.τ Cert.KernelIdeal.sig (Elt Ideal)) (X : Valuation Cert.ReferenceIdeal.τ Cert.ReferenceIdeal.sig (Elt Ideal))
    (h1 : (W (Proc.devRef .tc Cert.KernelIdeal.main_arg1) : (⟨Cert.KernelIdeal.S2x800000, .i32⟩ : BufTy).Contents (Elt Ideal)) = X (Proc.devRef .tc Cert.ReferenceIdeal.main_arg1)) :
    (StableHlo.after Cert.KernelIdeal.Gen.hostOps0 W (Proc.devRef .tc Cert.KernelIdeal.main_v1) : (⟨Cert.KernelIdeal.S800000, .i32⟩ : BufTy).Contents (Elt Ideal))
      = StableHlo.after (Cert.ReferenceIdeal.Stages.P1 (F := Ideal)) X (Proc.devRef .tc Cert.ReferenceIdeal.main_v1) := by
  rw [Cert.KernelIdeal.HostEval.first_v1 W, Cert.ReferenceIdeal.HostEval.first_v1 X, h1]

/-- The edges' targets. -/
theorem P1_v3 (W : Valuation Cert.KernelIdeal.τ Cert.KernelIdeal.sig (Elt Ideal)) (X : Valuation Cert.ReferenceIdeal.τ Cert.ReferenceIdeal.sig (Elt Ideal))
    (h1 : (W (Proc.devRef .tc Cert.KernelIdeal.main_arg1) : (⟨Cert.KernelIdeal.S2x800000, .i32⟩ : BufTy).Contents (Elt Ideal)) = X (Proc.devRef .tc Cert.ReferenceIdeal.main_arg1)) :
    (StableHlo.after Cert.KernelIdeal.Gen.hostOps0 W (Proc.devRef .tc Cert.KernelIdeal.main_v3) : (⟨Cert.KernelIdeal.S800000, .i32⟩ : BufTy).Contents (Elt Ideal))
      = StableHlo.after (Cert.ReferenceIdeal.Stages.P1 (F := Ideal)) X (Proc.devRef .tc Cert.ReferenceIdeal.main_v3) := by
  rw [Cert.KernelIdeal.HostEval.first_v3 W, Cert.ReferenceIdeal.HostEval.first_v3 X, h1]

/-- Argument 2 is not written. -/
theorem P1_arg2 (W : Valuation Cert.KernelIdeal.τ Cert.KernelIdeal.sig (Elt Ideal)) (X : Valuation Cert.ReferenceIdeal.τ Cert.ReferenceIdeal.sig (Elt Ideal))
    (h2 : (W (Proc.devRef .tc Cert.KernelIdeal.main_arg2) : Cert.KernelIdeal.S65x128.Idx → EReal) = X (Proc.devRef .tc Cert.ReferenceIdeal.main_arg2)) :
    (StableHlo.after Cert.KernelIdeal.Gen.hostOps0 W (Proc.devRef .tc Cert.KernelIdeal.main_arg2) : Cert.KernelIdeal.S65x128.Idx → EReal)
      = StableHlo.after (Cert.ReferenceIdeal.Stages.P1 (F := Ideal)) X (Proc.devRef .tc Cert.ReferenceIdeal.main_arg2) := by
  rw [Cert.KernelIdeal.HostEval.first_arg2 W, Cert.ReferenceIdeal.HostEval.first_arg2 X, h2]

/-- Argument 3 is not written. -/
theorem P1_arg3 (W : Valuation Cert.KernelIdeal.τ Cert.KernelIdeal.sig (Elt Ideal)) (X : Valuation Cert.ReferenceIdeal.τ Cert.ReferenceIdeal.sig (Elt Ideal))
    (h3 : (W (Proc.devRef .tc Cert.KernelIdeal.main_arg3) : Cert.KernelIdeal.S65x128.Idx → EReal) = X (Proc.devRef .tc Cert.ReferenceIdeal.main_arg3)) :
    (StableHlo.after Cert.KernelIdeal.Gen.hostOps0 W (Proc.devRef .tc Cert.KernelIdeal.main_arg3) : Cert.KernelIdeal.S65x128.Idx → EReal)
      = StableHlo.after (Cert.ReferenceIdeal.Stages.P1 (F := Ideal)) X (Proc.devRef .tc Cert.ReferenceIdeal.main_arg3) := by
  rw [Cert.KernelIdeal.HostEval.first_arg3 W, Cert.ReferenceIdeal.HostEval.first_arg3 X, h3]

/-- Argument 4 is not written. -/
theorem P1_arg4 (W : Valuation Cert.KernelIdeal.τ Cert.KernelIdeal.sig (Elt Ideal)) (X : Valuation Cert.ReferenceIdeal.τ Cert.ReferenceIdeal.sig (Elt Ideal))
    (h4 : (W (Proc.devRef .tc Cert.KernelIdeal.main_arg4) : Cert.KernelIdeal.S129x10.Idx → EReal) = X (Proc.devRef .tc Cert.ReferenceIdeal.main_arg4)) :
    (StableHlo.after Cert.KernelIdeal.Gen.hostOps0 W (Proc.devRef .tc Cert.KernelIdeal.main_arg4) : Cert.KernelIdeal.S129x10.Idx → EReal)
      = StableHlo.after (Cert.ReferenceIdeal.Stages.P1 (F := Ideal)) X (Proc.devRef .tc Cert.ReferenceIdeal.main_arg4) := by
  rw [Cert.KernelIdeal.HostEval.first_arg4 W, Cert.ReferenceIdeal.HostEval.first_arg4 X, h4]

/-- Argument 5 is not written. -/
theorem P1_arg5 (W : Valuation Cert.KernelIdeal.τ Cert.KernelIdeal.sig (Elt Ideal)) (X : Valuation Cert.ReferenceIdeal.τ Cert.ReferenceIdeal.sig (Elt Ideal))
    (h5 : (W (Proc.devRef .tc Cert.KernelIdeal.main_arg5) : Cert.KernelIdeal.S129x10.Idx → EReal) = X (Proc.devRef .tc Cert.ReferenceIdeal.main_arg5)) :
    (StableHlo.after Cert.KernelIdeal.Gen.hostOps0 W (Proc.devRef .tc Cert.KernelIdeal.main_arg5) : Cert.KernelIdeal.S129x10.Idx → EReal)
      = StableHlo.after (Cert.ReferenceIdeal.Stages.P1 (F := Ideal)) X (Proc.devRef .tc Cert.ReferenceIdeal.main_arg5) := by
  rw [Cert.KernelIdeal.HostEval.first_arg5 W, Cert.ReferenceIdeal.HostEval.first_arg5 X, h5]

/-! ## The second host stretch -/

/-- The first layer's result with a ones column. -/
theorem P2_v27 (W : Valuation Cert.KernelIdeal.τ Cert.KernelIdeal.sig (Elt Ideal)) (X : Valuation Cert.ReferenceIdeal.τ Cert.ReferenceIdeal.sig (Elt Ideal))
    (h25 : (W (Proc.devRef .tc Cert.KernelIdeal.main_v25) : Cert.KernelIdeal.S50000x128.Idx → EReal) = X (Proc.devRef .tc Cert.ReferenceIdeal.main_v33)) :
    (StableHlo.after Cert.KernelIdeal.Gen.hostOps1 W (Proc.devRef .tc Cert.KernelIdeal.main_v27) : Cert.KernelIdeal.S50000x129.Idx → EReal)
      = StableHlo.after (Cert.ReferenceIdeal.Stages.P2 (F := Ideal)) X (Proc.devRef .tc Cert.ReferenceIdeal.main_v35) := by
  rw [Cert.KernelIdeal.HostEval.second_rows W, Cert.ReferenceIdeal.HostEval.second_rows X, h25]

/-- The neighbours' mean of those rows. -/
theorem P2_v46 (W : Valuation Cert.KernelIdeal.τ Cert.KernelIdeal.sig (Elt Ideal)) (X : Valuation Cert.ReferenceIdeal.τ Cert.ReferenceIdeal.sig (Elt Ideal))
    (h25 : (W (Proc.devRef .tc Cert.KernelIdeal.main_v25) : Cert.KernelIdeal.S50000x128.Idx → EReal) = X (Proc.devRef .tc Cert.ReferenceIdeal.main_v33))
    (hv1 : (W (Proc.devRef .tc Cert.KernelIdeal.main_v1) : (⟨Cert.KernelIdeal.S800000, .i32⟩ : BufTy).Contents (Elt Ideal)) = X (Proc.devRef .tc Cert.ReferenceIdeal.main_v1))
    (hv3 : (W (Proc.devRef .tc Cert.KernelIdeal.main_v3) : (⟨Cert.KernelIdeal.S800000, .i32⟩ : BufTy).Contents (Elt Ideal)) = X (Proc.devRef .tc Cert.ReferenceIdeal.main_v3)) :
    (StableHlo.after Cert.KernelIdeal.Gen.hostOps1 W (Proc.devRef .tc Cert.KernelIdeal.main_v46) : Cert.KernelIdeal.S50000x129.Idx → EReal)
      = StableHlo.after (Cert.ReferenceIdeal.Stages.P2 (F := Ideal)) X (Proc.devRef .tc Cert.ReferenceIdeal.main_v54) := by
  rw [Cert.KernelIdeal.HostEval.second_neigh W, Cert.ReferenceIdeal.HostEval.second_neigh X, h25, hv1, hv3]

/-- Argument 4 is not written. -/
theorem P2_arg4 (W : Valuation Cert.KernelIdeal.τ Cert.KernelIdeal.sig (Elt Ideal)) (X : Valuation Cert.ReferenceIdeal.τ Cert.ReferenceIdeal.sig (Elt Ideal))
    (h4 : (W (Proc.devRef .tc Cert.KernelIdeal.main_arg4) : Cert.KernelIdeal.S129x10.Idx → EReal) = X (Proc.devRef .tc Cert.ReferenceIdeal.main_arg4)) :
    (StableHlo.after Cert.KernelIdeal.Gen.hostOps1 W (Proc.devRef .tc Cert.KernelIdeal.main_arg4) : Cert.KernelIdeal.S129x10.Idx → EReal)
      = StableHlo.after (Cert.ReferenceIdeal.Stages.P2 (F := Ideal)) X (Proc.devRef .tc Cert.ReferenceIdeal.main_arg4) := by
  rw [Cert.KernelIdeal.HostEval.second_arg4 W, Cert.ReferenceIdeal.HostEval.second_arg4 X, h4]

/-- Argument 5 is not written. -/
theorem P2_arg5 (W : Valuation Cert.KernelIdeal.τ Cert.KernelIdeal.sig (Elt Ideal)) (X : Valuation Cert.ReferenceIdeal.τ Cert.ReferenceIdeal.sig (Elt Ideal))
    (h5 : (W (Proc.devRef .tc Cert.KernelIdeal.main_arg5) : Cert.KernelIdeal.S129x10.Idx → EReal) = X (Proc.devRef .tc Cert.ReferenceIdeal.main_arg5)) :
    (StableHlo.after Cert.KernelIdeal.Gen.hostOps1 W (Proc.devRef .tc Cert.KernelIdeal.main_arg5) : Cert.KernelIdeal.S129x10.Idx → EReal)
      = StableHlo.after (Cert.ReferenceIdeal.Stages.P2 (F := Ideal)) X (Proc.devRef .tc Cert.ReferenceIdeal.main_arg5) := by
  rw [Cert.KernelIdeal.HostEval.second_arg5 W, Cert.ReferenceIdeal.HostEval.second_arg5 X, h5]

/-! ## The chain through the four segments -/

/-- From launch memories that agree on the six arguments, the kernel's result array after its last segment is the
    reference's result buffer after its 104 operations. -/
theorem result_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    (Cert.KernelIdeal.Gen.W4 m ρ c (Proc.devRef .tc Cert.KernelIdeal.main_v47) : Cert.KernelIdeal.S50000x10.Idx → EReal)
      = StableHlo.after (Cert.ReferenceIdeal.ValueP.ops (F := Ideal)) (StableHlo.launchContents m' c) (Proc.devRef .tc Cert.ReferenceIdeal.main_v63) := by
  rw [Cert.ReferenceIdeal.Stages.after_ops]
  -- the launch contents agree on the arguments
  have a0 : (Cert.KernelIdeal.Gen.W0 m ρ c (Proc.devRef .tc Cert.KernelIdeal.main_arg0) : Cert.KernelIdeal.S50000x64.Idx → EReal) = (StableHlo.launchContents m' c) (Proc.devRef .tc Cert.ReferenceIdeal.main_arg0) := h0.symm
  have a1 : (Cert.KernelIdeal.Gen.W0 m ρ c (Proc.devRef .tc Cert.KernelIdeal.main_arg1) : (⟨Cert.KernelIdeal.S2x800000, .i32⟩ : BufTy).Contents (Elt Ideal)) = (StableHlo.launchContents m' c) (Proc.devRef .tc Cert.ReferenceIdeal.main_arg1) := h1.symm
  have a2 : (Cert.KernelIdeal.Gen.W0 m ρ c (Proc.devRef .tc Cert.KernelIdeal.main_arg2) : Cert.KernelIdeal.S65x128.Idx → EReal) = (StableHlo.launchContents m' c) (Proc.devRef .tc Cert.ReferenceIdeal.main_arg2) := h2.symm
  have a3 : (Cert.KernelIdeal.Gen.W0 m ρ c (Proc.devRef .tc Cert.KernelIdeal.main_arg3) : Cert.KernelIdeal.S65x128.Idx → EReal) = (StableHlo.launchContents m' c) (Proc.devRef .tc Cert.ReferenceIdeal.main_arg3) := h3.symm
  have a4 : (Cert.KernelIdeal.Gen.W0 m ρ c (Proc.devRef .tc Cert.KernelIdeal.main_arg4) : Cert.KernelIdeal.S129x10.Idx → EReal) = (StableHlo.launchContents m' c) (Proc.devRef .tc Cert.ReferenceIdeal.main_arg4) := h4.symm
  have a5 : (Cert.KernelIdeal.Gen.W0 m ρ c (Proc.devRef .tc Cert.KernelIdeal.main_arg5) : Cert.KernelIdeal.S129x10.Idx → EReal) = (StableHlo.launchContents m' c) (Proc.devRef .tc Cert.ReferenceIdeal.main_arg5) := h5.symm
  -- after the first host stretch
  have s1_v5 : (Cert.KernelIdeal.Gen.W1 m ρ c (Proc.devRef .tc Cert.KernelIdeal.main_v5) : Cert.KernelIdeal.S50000x65.Idx → EReal) = (StableHlo.after (Cert.ReferenceIdeal.Stages.P1 (F := Ideal)) (StableHlo.launchContents m' c)) (Proc.devRef .tc Cert.ReferenceIdeal.main_v5) := P1_v5 _ _ a0
  have s1_v24 : (Cert.KernelIdeal.Gen.W1 m ρ c (Proc.devRef .tc Cert.KernelIdeal.main_v24) : Cert.KernelIdeal.S50000x65.Idx → EReal) = (StableHlo.after (Cert.ReferenceIdeal.Stages.P1 (F := Ideal)) (StableHlo.launchContents m' c)) (Proc.devRef .tc Cert.ReferenceIdeal.main_v24) := P1_v24 _ _ a0 a1
  have s1_v1 : (Cert.KernelIdeal.Gen.W1 m ρ c (Proc.devRef .tc Cert.KernelIdeal.main_v1) : (⟨Cert.KernelIdeal.S800000, .i32⟩ : BufTy).Contents (Elt Ideal)) = (StableHlo.after (Cert.ReferenceIdeal.Stages.P1 (F := Ideal)) (StableHlo.launchContents m' c)) (Proc.devRef .tc Cert.ReferenceIdeal.main_v1) := P1_v1 _ _ a1
  have s1_v3 : (Cert.KernelIdeal.Gen.W1 m ρ c (Proc.devRef .tc Cert.KernelIdeal.main_v3) : (⟨Cert.KernelIdeal.S800000, .i32⟩ : BufTy).Contents (Elt Ideal)) = (StableHlo.after (Cert.ReferenceIdeal.Stages.P1 (F := Ideal)) (StableHlo.launchContents m' c)) (Proc.devRef .tc Cert.ReferenceIdeal.main_v3) := P1_v3 _ _ a1
  have s1_arg2 : (Cert.KernelIdeal.Gen.W1 m ρ c (Proc.devRef .tc Cert.KernelIdeal.main_arg2) : Cert.KernelIdeal.S65x128.Idx → EReal) = (StableHlo.after (Cert.ReferenceIdeal.Stages.P1 (F := Ideal)) (StableHlo.launchContents m' c)) (Proc.devRef .tc Cert.ReferenceIdeal.main_arg2) := P1_arg2 _ _ a2
  have s1_arg3 : (Cert.KernelIdeal.Gen.W1 m ρ c (Proc.devRef .tc Cert.KernelIdeal.main_arg3) : Cert.KernelIdeal.S65x128.Idx → EReal) = (StableHlo.after (Cert.ReferenceIdeal.Stages.P1 (F := Ideal)) (StableHlo.launchContents m' c)) (Proc.devRef .tc Cert.ReferenceIdeal.main_arg3) := P1_arg3 _ _ a3
  have s1_arg4 : (Cert.KernelIdeal.Gen.W1 m ρ c (Proc.devRef .tc Cert.KernelIdeal.main_arg4) : Cert.KernelIdeal.S129x10.Idx → EReal) = (StableHlo.after (Cert.ReferenceIdeal.Stages.P1 (F := Ideal)) (StableHlo.launchContents m' c)) (Proc.devRef .tc Cert.ReferenceIdeal.main_arg4) := P1_arg4 _ _ a4
  have s1_arg5 : (Cert.KernelIdeal.Gen.W1 m ρ c (Proc.devRef .tc Cert.KernelIdeal.main_arg5) : Cert.KernelIdeal.S129x10.Idx → EReal) = (StableHlo.after (Cert.ReferenceIdeal.Stages.P1 (F := Ideal)) (StableHlo.launchContents m' c)) (Proc.devRef .tc Cert.ReferenceIdeal.main_arg5) := P1_arg5 _ _ a5
  -- after the first dense layer
  have s2_v25 : (Cert.KernelIdeal.Gen.W2 m ρ c (Proc.devRef .tc Cert.KernelIdeal.main_v25) : Cert.KernelIdeal.S50000x128.Idx → EReal) = (StableHlo.after (Cert.ReferenceIdeal.Stages.L1 (F := Ideal)) (StableHlo.after (Cert.ReferenceIdeal.Stages.P1 (F := Ideal)) (StableHlo.launchContents m' c))) (Proc.devRef .tc Cert.ReferenceIdeal.main_v33) := by
    rw [Cert.KernelIdeal.Stages.W2_v25 m ρ c, Cert.ReferenceIdeal.Stages.L1_result, s1_v5, s1_v24, s1_arg2, s1_arg3]
  have s2_v1 : (Cert.KernelIdeal.Gen.W2 m ρ c (Proc.devRef .tc Cert.KernelIdeal.main_v1) : (⟨Cert.KernelIdeal.S800000, .i32⟩ : BufTy).Contents (Elt Ideal)) = (StableHlo.after (Cert.ReferenceIdeal.Stages.L1 (F := Ideal)) (StableHlo.after (Cert.ReferenceIdeal.Stages.P1 (F := Ideal)) (StableHlo.launchContents m' c))) (Proc.devRef .tc Cert.ReferenceIdeal.main_v1) := by
    rw [Cert.KernelIdeal.Stages.W2_v1 m ρ c, Cert.ReferenceIdeal.Stages.L1_v1]; exact s1_v1
  have s2_v3 : (Cert.KernelIdeal.Gen.W2 m ρ c (Proc.devRef .tc Cert.KernelIdeal.main_v3) : (⟨Cert.KernelIdeal.S800000, .i32⟩ : BufTy).Contents (Elt Ideal)) = (StableHlo.after (Cert.ReferenceIdeal.Stages.L1 (F := Ideal)) (StableHlo.after (Cert.ReferenceIdeal.Stages.P1 (F := Ideal)) (StableHlo.launchContents m' c))) (Proc.devRef .tc Cert.ReferenceIdeal.main_v3) := by
    rw [Cert.KernelIdeal.Stages.W2_v3 m ρ c, Cert.ReferenceIdeal.Stages.L1_v3]; exact s1_v3
  have s2_arg4 : (Cert.KernelIdeal.Gen.W2 m ρ c (Proc.devRef .tc Cert.KernelIdeal.main_arg4) : Cert.KernelIdeal.S129x10.Idx → EReal) = (StableHlo.after (Cert.ReferenceIdeal.Stages.L1 (F := Ideal)) (StableHlo.after (Cert.ReferenceIdeal.Stages.P1 (F := Ideal)) (StableHlo.launchContents m' c))) (Proc.devRef .tc Cert.ReferenceIdeal.main_arg4) := by
    rw [Cert.KernelIdeal.Stages.W2_arg4 m ρ c, Cert.ReferenceIdeal.Stages.L1_arg4]; exact s1_arg4
  have s2_arg5 : (Cert.KernelIdeal.Gen.W2 m ρ c (Proc.devRef .tc Cert.KernelIdeal.main_arg5) : Cert.KernelIdeal.S129x10.Idx → EReal) = (StableHlo.after (Cert.ReferenceIdeal.Stages.L1 (F := Ideal)) (StableHlo.after (Cert.ReferenceIdeal.Stages.P1 (F := Ideal)) (StableHlo.launchContents m' c))) (Proc.devRef .tc Cert.ReferenceIdeal.main_arg5) := by
    rw [Cert.KernelIdeal.Stages.W2_arg5 m ρ c, Cert.ReferenceIdeal.Stages.L1_arg5]; exact s1_arg5
  -- after the second host stretch
  have s3_v27 : (Cert.KernelIdeal.Gen.W3 m ρ c (Proc.devRef .tc Cert.KernelIdeal.main_v27) : Cert.KernelIdeal.S50000x129.Idx → EReal) = (StableHlo.after (Cert.ReferenceIdeal.Stages.P2 (F := Ideal)) (StableHlo.after (Cert.ReferenceIdeal.Stages.L1 (F := Ideal)) (StableHlo.after (Cert.ReferenceIdeal.Stages.P1 (F := Ideal)) (StableHlo.launchContents m' c)))) (Proc.devRef .tc Cert.ReferenceIdeal.main_v35) := P2_v27 _ _ s2_v25
  have s3_v46 : (Cert.KernelIdeal.Gen.W3 m ρ c (Proc.devRef .tc Cert.KernelIdeal.main_v46) : Cert.KernelIdeal.S50000x129.Idx → EReal) = (StableHlo.after (Cert.ReferenceIdeal.Stages.P2 (F := Ideal)) (StableHlo.after (Cert.ReferenceIdeal.Stages.L1 (F := Ideal)) (StableHlo.after (Cert.ReferenceIdeal.Stages.P1 (F := Ideal)) (StableHlo.launchContents m' c)))) (Proc.devRef .tc Cert.ReferenceIdeal.main_v54) := P2_v46 _ _ s2_v25 s2_v1 s2_v3
  have s3_arg4 : (Cert.KernelIdeal.Gen.W3 m ρ c (Proc.devRef .tc Cert.KernelIdeal.main_arg4) : Cert.KernelIdeal.S129x10.Idx → EReal) = (StableHlo.after (Cert.ReferenceIdeal.Stages.P2 (F := Ideal)) (StableHlo.after (Cert.ReferenceIdeal.Stages.L1 (F := Ideal)) (StableHlo.after (Cert.ReferenceIdeal.Stages.P1 (F := Ideal)) (StableHlo.launchContents m' c)))) (Proc.devRef .tc Cert.ReferenceIdeal.main_arg4) := P2_arg4 _ _ s2_arg4
  have s3_arg5 : (Cert.KernelIdeal.Gen.W3 m ρ c (Proc.devRef .tc Cert.KernelIdeal.main_arg5) : Cert.KernelIdeal.S129x10.Idx → EReal) = (StableHlo.after (Cert.ReferenceIdeal.Stages.P2 (F := Ideal)) (StableHlo.after (Cert.ReferenceIdeal.Stages.L1 (F := Ideal)) (StableHlo.after (Cert.ReferenceIdeal.Stages.P1 (F := Ideal)) (StableHlo.launchContents m' c)))) (Proc.devRef .tc Cert.ReferenceIdeal.main_arg5) := P2_arg5 _ _ s2_arg5
  -- the second dense layer
  rw [Cert.KernelIdeal.Stages.W4_v47 m ρ c, Cert.ReferenceIdeal.Stages.L2b_result, Cert.ReferenceIdeal.Stages.L2a_result, Cert.SageRows.layer2_eq, s3_v27, s3_v46, s3_arg4, s3_arg5]

end Cert.Bridge

end
-- ==== Proof.lean ====
/-
  The certificate of the two-layer graph network: the kernel (two dense layers on the grid, with host operations
  before and between them) against its reference (the same network as array operations).

  The mathematics. A layer takes rows `hh` (the features with a ones column) and `neigh` (the mean of the neighbours' rows:
  a gather along the edges' sources, a scatter-add into their targets, divided by the degree clamped at one), forms
  `o = hh · W + neigh · W'`, scales each row to `o / (‖o‖ + ε)`, and then clamps at zero (first layer) or takes the row's
  log-softmax (second layer). Both programs run the SAME host operations for `hh` and `neigh`; the kernel runs the dense part
  on 25 blocks of 2000 rows, the reference on all 50000 rows at once. Since a row of a dense layer's result depends only on
  the same row of `hh` and `neigh`, a block of the kernel's result is the same block of the reference's (Proof/SageRows.lean:
  the row functions, in both spellings; Proof/Payload.lean and Proof/Region.lean: the kernel's blocks and their cover of the
  array; Proof/RefStages.lean: the reference a stretch of operations at a time; Proof/Bridge.lean: the chain). Over the extended
  reals the two spellings differ only in `0 + x`, in the order of finite sums, in changes of float format (identities), and in
  one more `max` with −∞: no step needs the inputs to be finite, so the precondition is not opened.

  The frames of the two kernel programs are the generated ones; the reference's frame is its run with the result dropped.
  Nothing was rewritten by the ideal pass, so `preserves` is `True`.
-/
import proofs.«138851_j12524124635376_1_alg».proof.Defs
import proofs.«138851_j12524124635376_1_alg».proof.Proof.Gen.Kernel
import proofs.«138851_j12524124635376_1_alg».proof.Proof.Gen.Kernel.Skeleton
import proofs.«138851_j12524124635376_1_alg».proof.Proof.Gen.Kernel.Launch
import proofs.«138851_j12524124635376_1_alg».proof.Proof.Gen.Kernel.Points
import proofs.«138851_j12524124635376_1_alg».proof.Proof.Gen.Kernel.Frame
import proofs.«138851_j12524124635376_1_alg».proof.Proof.Gen.KernelIdeal
import proofs.«138851_j12524124635376_1_alg».proof.Proof.Gen.KernelIdeal.Skeleton
import proofs.«138851_j12524124635376_1_alg».proof.Proof.Gen.KernelIdeal.Launch
import proofs.«138851_j12524124635376_1_alg».proof.Proof.Gen.KernelIdeal.Points
import proofs.«138851_j12524124635376_1_alg».proof.Proof.Gen.KernelIdeal.Frame
import proofs.«138851_j12524124635376_1_alg».proof.Proof.Gen.ReferenceIdeal
import proofs.«138851_j12524124635376_1_alg».proof.Proof.Gen.Pre_finite_inputs
import proofs.«138851_j12524124635376_1_alg».proof.Proof.RunOut
import proofs.«138851_j12524124635376_1_alg».proof.Proof.Bridge
import Idealize.ShloMosaic.Adequacy
import Idealize.ShloMosaic.Init

set_option maxRecDepth 16384

noncomputable section

namespace Cert.Proof

open Idealize.ShloMosaic Idealize.SL.Sem

namespace Claims

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: no operation writes an argument buffer. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c =>
      ⟨(h c Cert.ReferenceIdeal.main_arg0).trans (Cert.ReferenceIdeal.Stages.ops_arg0 _),
       (h c Cert.ReferenceIdeal.main_arg1).trans (Cert.ReferenceIdeal.Stages.ops_arg1 _),
       (h c Cert.ReferenceIdeal.main_arg2).trans (Cert.ReferenceIdeal.Stages.ops_arg2 _),
       (h c Cert.ReferenceIdeal.main_arg3).trans (Cert.ReferenceIdeal.Stages.ops_arg3 _),
       (h c Cert.ReferenceIdeal.main_arg4).trans (Cert.ReferenceIdeal.Stages.ops_arg4 _),
       (h c Cert.ReferenceIdeal.main_arg5).trans (Cert.ReferenceIdeal.Stages.ops_arg5 _)⟩)
    (Cert.ReferenceIdeal.ValueP.run_after (F := Ideal) m ρ)

/-- The ideal pass rewrote nothing. -/
theorem preserves : Cert.preserves_Kernel_KernelIdeal := trivial

/-- Both idealized programs run, and from memories agreeing on the arguments the kernel's result array (what its last
    segment leaves) is the reference's result buffer (the fold of its operations), by the chain of Proof/Bridge.lean. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W4 m ρ c (Proc.devRef .tc Cert.KernelIdeal.main_v47),
    Cert.KernelIdeal.RunOut.run_out (F := Ideal) m ρ, ?_⟩
  refine (θ_run Cert.ReferenceIdeal.defs _ _).mono (fun _ h c =>
      ⟨(h c Cert.ReferenceIdeal.main_v63).trans
          (Cert.Bridge.result_eq m ρ m' c (hagree c).1 (hagree c).2.1 (hagree c).2.2.1 (hagree c).2.2.2.1 (hagree c).2.2.2.2.1 (hagree c).2.2.2.2.2).symm,
       (h c Cert.ReferenceIdeal.main_arg0).trans (Cert.ReferenceIdeal.Stages.ops_arg0 _),
       (h c Cert.ReferenceIdeal.main_arg1).trans (Cert.ReferenceIdeal.Stages.ops_arg1 _),
       (h c Cert.ReferenceIdeal.main_arg2).trans (Cert.ReferenceIdeal.Stages.ops_arg2 _),
       (h c Cert.ReferenceIdeal.main_arg3).trans (Cert.ReferenceIdeal.Stages.ops_arg3 _),
       (h c Cert.ReferenceIdeal.main_arg4).trans (Cert.ReferenceIdeal.Stages.ops_arg4 _),
       (h c Cert.ReferenceIdeal.main_arg5).trans (Cert.ReferenceIdeal.Stages.ops_arg5 _)⟩)
    (Cert.ReferenceIdeal.ValueP.run_after (F := Ideal) m' ρ')

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
